-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel

variable [Facts]

def fn {F : FTy → Type} [FloatOps F] (main_arg0 : FVec F S4000000x3 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  main_v3
-- ==== Kernel.lean ====
abbrev S4000000x3 : Shape := ⟨2, ![4000000, 3]⟩
abbrev S4000000x16 : Shape := ⟨2, ![4000000, 16]⟩
abbrev S10000x3 : Shape := ⟨2, ![10000, 3]⟩
abbrev S10000x16 : Shape := ⟨2, ![10000, 16]⟩
abbrev S1000x3 : Shape := ⟨2, ![1000, 3]⟩
abbrev S1000x1 : Shape := ⟨2, ![1000, 1]⟩
abbrev S1000 : Shape := ⟨1, ![1000]⟩
abbrev S1000x16 : Shape := ⟨2, ![1000, 16]⟩

abbrev nBuf : Space → Nat
  | .hbm => 2
  | .vmem => 4
  | .smem => 0
  | _ => 0

abbrev bufTy : (tb : Table) → Fin (tcTables nBuf tb) → BufTy
  | .hbm, ⟨0, _⟩ => ⟨S4000000x3, .f32⟩
  | .hbm, ⟨1, _⟩ => ⟨S4000000x16, .f32⟩
  | .local _ .vmem, ⟨0, _⟩ => ⟨S10000x3, .f32⟩
  | .local _ .vmem, ⟨1, _⟩ => ⟨S10000x3, .f32⟩
  | .local _ .vmem, ⟨2, _⟩ => ⟨S10000x16, .f32⟩
  | .local _ .vmem, ⟨3, _⟩ => ⟨S10000x16, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![400], ![false]⟩

@[reducible] def k0_t1_loop : Scf.Loop 32 :=
  let c0_i32 : BitVec 32 := 0#32
  let c10_i32 : BitVec 32 := 10#32
  let v0 : BitVec 32 := Scalar.addi c0_i32 c10_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c1000_i32 : BitVec 32 := 1000#32
  let v1 : BitVec 32 := Scalar.muli arg3 c1000_i32
  v1
def k0_off1 (k0_t1 : Fin k0_t1_loop.trips) : Fin 2 → Nat :=
  let c0_i32 : BitVec 32 := 0#32
  let c1_i32 : BitVec 32 := 1#32
  let arg3 : BitVec 32 := Scf.iv c0_i32 c1_i32 k0_t1
  let c1000_i32 : BitVec 32 := 1000#32
  let v1 : BitVec 32 := Scalar.muli arg3 c1000_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg3 : BitVec 32 := Scf.iv c0_i32 c1_i32 k0_t1
  let c1000_i32 : BitVec 32 := 1000#32
  let v1 : BitVec 32 := Scalar.muli arg3 c1000_i32
  let v2 : BitVec 32 := v1
  let v108 : Index := Scalar.indexCast v2
  let c0_27 : Index := 0#32
  ![v108.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S1000x3 : 0 < S1000x3.numel
  slices_S1000x3_o0_0_S1000x1 : S1000x3.Slices ![0, 0] S1000x1
  shapeCasts_S1000x1_S1000 : S1000x1.ShapeCasts S1000
  slices_S1000x3_o0_1_S1000x1 : S1000x3.Slices ![0, 1] S1000x1
  slices_S1000x3_o0_2_S1000x1 : S1000x3.Slices ![0, 2] S1000x1
  shapeCasts_S1000_S1000x1 : S1000.ShapeCasts S1000x1
  concatenates_S1000x1_S1000x1_S1000x1_S1000x1_S1000x1_S1000x1_S1000x1_S1000x1_S1000x1_S1000x1_S1000x1_S1000x1_S1000x1_S1000x1_S1000x1_S1000x1_S1000x16_d1 : Shape.Concatenates [S1000x1, S1000x1, S1000x1, S1000x1, S1000x1, S1000x1, S1000x1, S1000x1, S1000x1, S1000x1, S1000x1, S1000x1, S1000x1, S1000x1, S1000x1, S1000x1] S1000x16 1
  h_S1000x16 : 0 < S1000x16.numel
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1000x3.size a ≤ S10000x3.size a
  k0_off2_inb : ∀ k0_t1 : Fin k0_t1_loop.trips, ∀ a, (k0_off2 k0_t1) a + S1000x16.size a ≤ S10000x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S4000000x3.size a
  hwx0_0 : ∀ i : grid0.Coords, EltTy.bits .f32 = 32 ∨ (Rect.block (s := S4000000x3) S10000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S4000000x16.size a
  hwx0_1 : ∀ i : grid0.Coords, EltTy.bits .f32 = 32 ∨ (Rect.block (s := S4000000x16) S10000x16.size (cc0_transform_1 i) (hinb0_1 i)).WholeWords (EltTy.packing .f32)

variable [Facts₀]

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S_ : Shape := ⟨0, ![]⟩
abbrev S4000000 : Shape := ⟨1, ![4000000]⟩
abbrev S4000000x1 : Shape := ⟨2, ![4000000, 1]⟩
abbrev S4000000x16 : Shape := ⟨2, ![4000000, 16]⟩

abbrev nBuf : Space → Nat
  | .hbm => 129
  | .vmem => 0
  | .smem => 0
  | _ => 0

abbrev hbmTy0_0 (i : Nat) : BufTy := match i % 128 with
  | 0 => ⟨S4000000x3, .f32⟩
  | 1 => ⟨S4000000x3, .f32⟩
  | 2 => ⟨S_, .f32⟩
  | 3 => ⟨S4000000, .f32⟩
  | 4 => ⟨S4000000x1, .f32⟩
  | 5 => ⟨S4000000x1, .f32⟩
  | 6 => ⟨S4000000x3, .f32⟩
  | 7 => ⟨S4000000x3, .f32⟩
  | 8 => ⟨S4000000x1, .f32⟩
  | 9 => ⟨S4000000, .f32⟩
  | 10 => ⟨S4000000x1, .f32⟩
  | 11 => ⟨S4000000, .f32⟩
  | 12 => ⟨S4000000x1, .f32⟩
  | 13 => ⟨S4000000, .f32⟩
  | 14 => ⟨S4000000, .f32⟩
  | 15 => ⟨S4000000, .f32⟩
  | 16 => ⟨S4000000, .f32⟩
  | 17 => ⟨S_, .f32⟩
  | 18 => ⟨S4000000, .f32⟩
  | 19 => ⟨S_, .f32⟩
  | 20 => ⟨S4000000, .f32⟩
  | 21 => ⟨S4000000, .f32⟩
  | 22 => ⟨S_, .f32⟩
  | 23 => ⟨S4000000, .f32⟩
  | 24 => ⟨S4000000, .f32⟩
  | 25 => ⟨S_, .f32⟩
  | 26 => ⟨S4000000, .f32⟩
  | 27 => ⟨S4000000, .f32⟩
  | 28 => ⟨S_, .f32⟩
  | 29 => ⟨S4000000, .f32⟩
  | 30 => ⟨S4000000, .f32⟩
  | 31 => ⟨S_, .f32⟩
  | 32 => ⟨S4000000, .f32⟩
  | 33 => ⟨S4000000, .f32⟩
  | 34 => ⟨S4000000, .f32⟩
  | 35 => ⟨S_, .f32⟩
  | 36 => ⟨S4000000, .f32⟩
  | 37 => ⟨S4000000, .f32⟩
  | 38 => ⟨S4000000, .f32⟩
  | 39 => ⟨S_, .f32⟩
  | 40 => ⟨S4000000, .f32⟩
  | 41 => ⟨S4000000, .f32⟩
  | 42 => ⟨S_, .f32⟩
  | 43 => ⟨S4000000, .f32⟩
  | 44 => ⟨S4000000, .f32⟩
  | 45 => ⟨S_, .f32⟩
  | 46 => ⟨S4000000, .f32⟩
  | 47 => ⟨S4000000, .f32⟩
  | 48 => ⟨S_, .f32⟩
  | 49 => ⟨S4000000, .f32⟩
  | 50 => ⟨S4000000, .f32⟩
  | 51 => ⟨S4000000, .f32⟩
  | 52 => ⟨S4000000, .f32⟩
  | 53 => ⟨S_, .f32⟩
  | 54 => ⟨S4000000, .f32⟩
  | 55 => ⟨S4000000, .f32⟩
  | 56 => ⟨S_, .f32⟩
  | 57 => ⟨S4000000, .f32⟩
  | 58 => ⟨S4000000, .f32⟩
  | 59 => ⟨S_, .f32⟩
  | 60 => ⟨S4000000, .f32⟩
  | 61 => ⟨S4000000, .f32⟩
  | 62 => ⟨S4000000, .f32⟩
  | 63 => ⟨S4000000, .f32⟩
  | 64 => ⟨S_, .f32⟩
  | 65 => ⟨S4000000, .f32⟩
  | 66 => ⟨S4000000, .f32⟩
  | 67 => ⟨S4000000, .f32⟩
  | 68 => ⟨S4000000, .f32⟩
  | 69 => ⟨S_, .f32⟩
  | 70 => ⟨S4000000, .f32⟩
  | 71 => ⟨S4000000, .f32⟩
  | 72 => ⟨S_, .f32⟩
  | 73 => ⟨S4000000, .f32⟩
  | 74 => ⟨S4000000, .f32⟩
  | 75 => ⟨S_, .f32⟩
  | 76 => ⟨S4000000, .f32⟩
  | 77 => ⟨S4000000, .f32⟩
  | 78 => ⟨S4000000, .f32⟩
  | 79 => ⟨S_, .f32⟩
  | 80 => ⟨S4000000, .f32⟩
  | 81 => ⟨S4000000, .f32⟩
  | 82 => ⟨S_, .f32⟩
  | 83 => ⟨S4000000, .f32⟩
  | 84 => ⟨S4000000, .f32⟩
  | 85 => ⟨S_, .f32⟩
  | 86 => ⟨S4000000, .f32⟩
  | 87 => ⟨S4000000, .f32⟩
  | 88 => ⟨S4000000, .f32⟩
  | 89 => ⟨S_, .f32⟩
  | 90 => ⟨S4000000, .f32⟩
  | 91 => ⟨S4000000, .f32⟩
  | 92 => ⟨S_, .f32⟩
  | 93 => ⟨S4000000, .f32⟩
  | 94 => ⟨S4000000, .f32⟩
  | 95 => ⟨S_, .f32⟩
  | 96 => ⟨S4000000, .f32⟩
  | 97 => ⟨S4000000, .f32⟩
  | 98 => ⟨S4000000, .f32⟩
  | 99 => ⟨S_, .f32⟩
  | 100 => ⟨S4000000, .f32⟩
  | 101 => ⟨S4000000, .f32⟩
  | 102 => ⟨S4000000, .f32⟩
  | 103 => ⟨S4000000, .f32⟩
  | 104 => ⟨S_, .f32⟩
  | 105 => ⟨S4000000, .f32⟩
  | 106 => ⟨S4000000, .f32⟩
  | 107 => ⟨S_, .f32⟩
  | 108 => ⟨S4000000, .f32⟩
  | 109 => ⟨S4000000, .f32⟩
  | 110 => ⟨S4000000, .f32⟩
  | 111 => ⟨S4000000, .f32⟩
  | 112 => ⟨S4000000x1, .f32⟩
  | 113 => ⟨S4000000x1, .f32⟩
  | 114 => ⟨S4000000x1, .f32⟩
  | 115 => ⟨S4000000x1, .f32⟩
  | 116 => ⟨S4000000x1, .f32⟩
  | 117 => ⟨S4000000x1, .f32⟩
  | 118 => ⟨S4000000x1, .f32⟩
  | 119 => ⟨S4000000x1, .f32⟩
  | 120 => ⟨S4000000x1, .f32⟩
  | 121 => ⟨S4000000x1, .f32⟩
  | 122 => ⟨S4000000x1, .f32⟩
  | 123 => ⟨S4000000x1, .f32⟩
  | 124 => ⟨S4000000x1, .f32⟩
  | 125 => ⟨S4000000x1, .f32⟩
  | 126 => ⟨S4000000x1, .f32⟩
  | 127 => ⟨S4000000x1, .f32⟩
  | _ => ⟨S4000000x3, .f32⟩

abbrev hbmTy0_1 (i : Nat) : BufTy := match i % 128 with
  | 0 => ⟨S4000000x16, .f32⟩
  | _ => ⟨S4000000x3, .f32⟩

abbrev hbmTy (i : Nat) : BufTy := match i / 128 with
  | 0 => hbmTy0_0 i
  | 1 => hbmTy0_1 i
  | _ => ⟨S4000000x3, .f32⟩

abbrev bufTy : (tb : Table) → Fin (tcTables nBuf tb) → BufTy
  | .hbm, ⟨i, _⟩ => hbmTy i
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_6 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_7 : Ref sig .tc := ⟨.hbm, 39, rfl⟩
abbrev main_v30 : Ref sig .tc := ⟨.hbm, 40, rfl⟩
abbrev main_v31 : Ref sig .tc := ⟨.hbm, 41, rfl⟩
abbrev main_cst_8 : Ref sig .tc := ⟨.hbm, 42, rfl⟩
abbrev main_v32 : Ref sig .tc := ⟨.hbm, 43, rfl⟩
abbrev main_v33 : Ref sig .tc := ⟨.hbm, 44, rfl⟩
abbrev main_cst_9 : Ref sig .tc := ⟨.hbm, 45, rfl⟩
abbrev main_v34 : Ref sig .tc := ⟨.hbm, 46, rfl⟩
abbrev main_v35 : Ref sig .tc := ⟨.hbm, 47, rfl⟩
abbrev main_cst_10 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_11 : Ref sig .tc := ⟨.hbm, 53, rfl⟩
abbrev main_v40 : Ref sig .tc := ⟨.hbm, 54, rfl⟩
abbrev main_v41 : Ref sig .tc := ⟨.hbm, 55, rfl⟩
abbrev main_cst_12 : Ref sig .tc := ⟨.hbm, 56, rfl⟩
abbrev main_v42 : Ref sig .tc := ⟨.hbm, 57, rfl⟩
abbrev main_v43 : Ref sig .tc := ⟨.hbm, 58, rfl⟩
abbrev main_cst_13 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_14 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_15 : Ref sig .tc := ⟨.hbm, 69, rfl⟩
abbrev main_v52 : Ref sig .tc := ⟨.hbm, 70, rfl⟩
abbrev main_v53 : Ref sig .tc := ⟨.hbm, 71, rfl⟩
abbrev main_cst_16 : Ref sig .tc := ⟨.hbm, 72, rfl⟩
abbrev main_v54 : Ref sig .tc := ⟨.hbm, 73, rfl⟩
abbrev main_v55 : Ref sig .tc := ⟨.hbm, 74, rfl⟩
abbrev main_cst_17 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_18 : Ref sig .tc := ⟨.hbm, 79, rfl⟩
abbrev main_v59 : Ref sig .tc := ⟨.hbm, 80, rfl⟩
abbrev main_v60 : Ref sig .tc := ⟨.hbm, 81, rfl⟩
abbrev main_cst_19 : Ref sig .tc := ⟨.hbm, 82, rfl⟩
abbrev main_v61 : Ref sig .tc := ⟨.hbm, 83, rfl⟩
abbrev main_v62 : Ref sig .tc := ⟨.hbm, 84, rfl⟩
abbrev main_cst_20 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_21 : Ref sig .tc := ⟨.hbm, 89, rfl⟩
abbrev main_v66 : Ref sig .tc := ⟨.hbm, 90, rfl⟩
abbrev main_v67 : Ref sig .tc := ⟨.hbm, 91, rfl⟩
abbrev main_cst_22 : Ref sig .tc := ⟨.hbm, 92, rfl⟩
abbrev main_v68 : Ref sig .tc := ⟨.hbm, 93, rfl⟩
abbrev main_v69 : Ref sig .tc := ⟨.hbm, 94, rfl⟩
abbrev main_cst_23 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_24 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_25 : Ref sig .tc := ⟨.hbm, 104, rfl⟩
abbrev main_v77 : Ref sig .tc := ⟨.hbm, 105, rfl⟩
abbrev main_v78 : Ref sig .tc := ⟨.hbm, 106, rfl⟩
abbrev main_cst_26 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩

abbrev nD : Nat := 1
abbrev τ : Topo := Topo.v7x

variable {F : FTy → Type} [FloatOps F]

class Facts₀ : Prop where
  reducesTo_S4000000x3_S4000000_d1 : S4000000x3.ReducesTo [1] S4000000
  h_S_ : 0 < S_.numel
  bcast_S4000000_S4000000x1_0 : S4000000.BroadcastsInDim S4000000x1 (![0] : Fin 1 → Fin S4000000x1.rank)
  bcast_S4000000x1_S4000000x3_0_1 : S4000000x1.BroadcastsInDim S4000000x3 (![0, 1] : Fin 2 → Fin S4000000x3.rank)
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  slices_S4000000x3_S4000000x1_0_2 : S4000000x3.Slices ![0, 2] S4000000x1
  bcast_S_S4000000 : S_.BroadcastsInDim S4000000 (![] : Fin 0 → Fin S4000000.rank)
  concatenates_S4000000x1_S4000000x1_S4000000x1_S4000000x1_S4000000x1_S4000000x1_S4000000x1_S4000000x1_S4000000x1_S4000000x1_S4000000x1_S4000000x1_S4000000x1_S4000000x1_S4000000x1_S4000000x1_S4000000x16_d1 : Shape.Concatenates [S4000000x1, S4000000x1, S4000000x1, S4000000x1, S4000000x1, S4000000x1, S4000000x1, S4000000x1, S4000000x1, S4000000x1, S4000000x1, S4000000x1, S4000000x1, S4000000x1, S4000000x1, S4000000x1] S4000000x16 1

variable [Facts₀]

class Facts : Prop extends Facts₀ where

variable [Facts]
-- ==== Proof.Spec.lean ====
/-
  Real spherical harmonics of degree 0 to 3 of a normalised 3-vector, as one function of the vector's three entries.

  For a row `(a₀, a₁, a₂)` put `s = (a₀² + a₁²) + a₂²`, `r = 1/√s` and `x = a₀·r`, `y = a₁·r`, `z = a₂·r`.  The sixteen values
  are `c·1`; `c·y`, `c·z`, `c·x`; `(c·x)·y`, `(c·y)·z`, `c·(3z² − 1)`, `(c·x)·z`, `c·(x² − y²)`;
  `(c·y)·(3x² − y²)`, `((c·x)·y)·z`, `(c·y)·(5z² − 1)`, `(c·z)·(5z² − 3)`, `(c·x)·(5z² − 1)`, `(c·z)·(x² − y²)`,
  `(c·x)·(x² − 3y²)`, each `c` the single-precision constant of its degree and order, kept as the word that denotes it.
  All arithmetic is that of the extended reals.
-/
import Idealize.ShloMosaic.PureOps.Ideal
import Idealize.ShloMosaic.Lib.ValueIdx

noncomputable section

namespace Cert.SphHarm

open Idealize.ShloMosaic Idealize.ShloMosaic.ValueIdx

/-- The extended real a single-precision word denotes. -/
abbrev lit (w : BitVec 32) : EReal := Ideal.ofBits .f32 w

/-- The squared length of a row, added in the order `(a₀² + a₁²) + a₂²`. -/
def sumsq (a0 a1 a2 : EReal) : EReal := (a0 * a0 + a1 * a1) + a2 * a2

/-- The reciprocal of a row's length. -/
def invNorm (a0 a1 a2 : EReal) : EReal := Ideal.rsqrt (sumsq a0 a1 a2)

/-- The sixteen harmonics of a unit vector `(x, y, z)`. -/
def harm (x y z : EReal) : Fin 16 → EReal :=
  ![lit 0x3E906EBB#32 * lit 0x3F800000#32,
    lit 0x3EFA2A1C#32 * y,
    lit 0x3EFA2A1C#32 * z,
    lit 0x3EFA2A1C#32 * x,
    lit 0x3F8BD8A1#32 * x * y,
    lit 0x3F8BD8A1#32 * y * z,
    lit 0x3EA17B01#32 * (lit 0x40400000#32 * (z * z) - lit 0x3F800000#32),
    lit 0x3F8BD8A1#32 * x * z,
    lit 0x3F0BD8A1#32 * (x * x - y * y),
    lit 0x3F170D19#32 * y * (lit 0x40400000#32 * (x * x) - y * y),
    lit 0x4038FFC7#32 * x * y * z,
    lit 0x3EEA01E8#32 * y * (lit 0x40A00000#32 * (z * z) - lit 0x3F800000#32),
    lit 0x3EBF10F8#32 * z * (lit 0x40A00000#32 * (z * z) - lit 0x40400000#32),
    lit 0x3EEA01E8#32 * x * (lit 0x40A00000#32 * (z * z) - lit 0x3F800000#32),
    lit 0x3FB8FFC7#32 * z * (x * x - y * y),
    lit 0x3F170D19#32 * x * (x * x - lit 0x40400000#32 * (y * y))]

/-- The sixteen harmonics of the direction of a row `(a₀, a₁, a₂)`. -/
def row (a0 a1 a2 : EReal) (j : Fin 16) : EReal :=
  harm (a0 * invNorm a0 a1 a2) (a1 * invNorm a0 a1 a2) (a2 * invNorm a0 a1 a2) j

/-- The whole result: row `p` of the `[n, 16]` array is the harmonics of row `p` of the `[n, 3]` array. -/
def table {n : ℕ} (X : (⟨2, ![n, 3]⟩ : Shape).Idx → EReal) : (⟨2, ![n, 16]⟩ : Shape).Idx → EReal :=
  fun i => row (X (ix2 (i 0) 0)) (X (ix2 (i 0) 1)) (X (ix2 (i 0) 2)) (i 1)

theorem table_apply {n : ℕ} (X : (⟨2, ![n, 3]⟩ : Shape).Idx → EReal) (p : Fin n) (q : Fin 16) :
    table X (ix2 p q) = row (X (ix2 p 0)) (X (ix2 p 1)) (X (ix2 p 2)) q := rfl

end Cert.SphHarm

end
-- ==== Proof.LibColumns.lean ====
/-
  Columns of a matrix, read at an index.

  Column `k` of an `[n, m]` array, cut out as an `[n, 1]` array and re-laid as a vector of length `n`, has at `p`
  the array's entry `(p, k)`.  An `[n, 16]` array assembled by joining sixteen `[n, 1]` arrays along the second axis
  has at `(p, q)` the `q`-th of them at `(p, 0)`.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- A one-column matrix re-laid as a vector: entry `p` is entry `(p, 0)`. -/
theorem shapeCast_uncol_apply {n : ℕ} (v : (⟨2, ![n, 1]⟩ : Shape).Idx → α) (h : (⟨2, ![n, 1]⟩ : Shape).ShapeCasts ⟨1, ![n]⟩) (p : Fin n) :
    shapeCast (⟨1, ![n]⟩ : Shape) v h (ix1 p) = v (ix2 p (0 : Fin 1)) := by
  refine shapeCast_apply v h (ix1 p) (ix2 p (0 : Fin 1)) ?_
  rw [Shape.rowMajor_val_two, Shape.rowMajor_val_one]
  show p.val * 1 + 0 = p.val
  omega

/-- Column `k` (at offset `o = k`) of an `[n, m]` array, cut out and re-laid as a vector: entry `p` is the array's `(p, k)`. -/
theorem column_apply {n m : ℕ} (o : ℕ) (k : Fin m) (hk : k.val = o) (X : (⟨2, ![n, m]⟩ : Shape).Idx → α)
    (hs : (⟨2, ![n, m]⟩ : Shape).Slices ![0, o] ⟨2, ![n, 1]⟩) (hc : (⟨2, ![n, 1]⟩ : Shape).ShapeCasts ⟨1, ![n]⟩) (p : Fin n) :
    shapeCast (⟨1, ![n]⟩ : Shape) (extractStridedSlice ⟨2, ![n, 1]⟩ ![0, o] X hs) hc (ix1 p) = X (ix2 p k) := by
  rw [shapeCast_uncol_apply]
  exact slice2_axis1_apply o X hs p (0 : Fin 1) k (by rw [hk]; rfl)

/-- Sixteen `[n, 1]` arrays joined along the second axis: entry `(p, q)` of the result is the `q`-th array at `(p, 0)`. -/
theorem concat16_columns_apply {n : ℕ} (f : Fin 16 → (⟨2, ![n, 1]⟩ : Shape).Idx → α)
    (h : Shape.Concatenates (([⟨⟨2, ![n, 1]⟩, f 0⟩, ⟨⟨2, ![n, 1]⟩, f 1⟩, ⟨⟨2, ![n, 1]⟩, f 2⟩, ⟨⟨2, ![n, 1]⟩, f 3⟩, ⟨⟨2, ![n, 1]⟩, f 4⟩,
      ⟨⟨2, ![n, 1]⟩, f 5⟩, ⟨⟨2, ![n, 1]⟩, f 6⟩, ⟨⟨2, ![n, 1]⟩, f 7⟩, ⟨⟨2, ![n, 1]⟩, f 8⟩, ⟨⟨2, ![n, 1]⟩, f 9⟩, ⟨⟨2, ![n, 1]⟩, f 10⟩,
      ⟨⟨2, ![n, 1]⟩, f 11⟩, ⟨⟨2, ![n, 1]⟩, f 12⟩, ⟨⟨2, ![n, 1]⟩, f 13⟩, ⟨⟨2, ![n, 1]⟩, f 14⟩, ⟨⟨2, ![n, 1]⟩, f 15⟩] :
      List ((s : Shape) × (s.Idx → α))).map (·.1)) ⟨2, ![n, 16]⟩ (1 : Fin 2))
    (p : Fin n) (q : Fin 16) :
    concatenate (⟨2, ![n, 16]⟩ : Shape) (1 : Fin 2) [⟨⟨2, ![n, 1]⟩, f 0⟩, ⟨⟨2, ![n, 1]⟩, f 1⟩, ⟨⟨2, ![n, 1]⟩, f 2⟩, ⟨⟨2, ![n, 1]⟩, f 3⟩,
      ⟨⟨2, ![n, 1]⟩, f 4⟩, ⟨⟨2, ![n, 1]⟩, f 5⟩, ⟨⟨2, ![n, 1]⟩, f 6⟩, ⟨⟨2, ![n, 1]⟩, f 7⟩, ⟨⟨2, ![n, 1]⟩, f 8⟩, ⟨⟨2, ![n, 1]⟩, f 9⟩,
      ⟨⟨2, ![n, 1]⟩, f 10⟩, ⟨⟨2, ![n, 1]⟩, f 11⟩, ⟨⟨2, ![n, 1]⟩, f 12⟩, ⟨⟨2, ![n, 1]⟩, f 13⟩, ⟨⟨2, ![n, 1]⟩, f 14⟩, ⟨⟨2, ![n, 1]⟩, f 15⟩] h (ix2 p q)
      = f q (ix2 p (0 : Fin 1)) :=
  concatenate_ofFn_unit_apply (t := ⟨2, ![n, 16]⟩) (s₁ := ⟨2, ![n, 1]⟩) (1 : Fin 2) f h rfl rfl (ix2 p q) q rfl (ix2 p (0 : Fin 1))
    (fun b hb => by
      match b with
      | ⟨0, _⟩ => rfl
      | ⟨1, _⟩ => exact absurd rfl hb)

end Cert.Layout

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.KernelChunk.lean ====
/-
  What one trip of the kernel's row loop stores: for a chunk of a thousand rows of the input block, the thousand rows of
  sixteen harmonics.  Entry `(p, q)` of the stored chunk is harmonic `q` of row `p` of the loaded chunk: the body cuts the
  three columns out of the chunk, normalises them by the reciprocal length of each row, forms the sixteen products column
  by column, and joins the sixteen columns.
-/
import proofs.«149268_j56805237457290_2_alg».proof.Proof.Gen.KernelIdeal.Skeleton
import proofs.«149268_j56805237457290_2_alg».proof.Proof.Spec
import proofs.«149268_j56805237457290_2_alg».proof.Proof.LibColumns
import proofs.«149268_j56805237457290_2_alg».proof.Proof.LibBroadcast

noncomputable section

namespace Cert.SphHarm.Kernel

open Cert.KernelIdeal Cert.KernelIdeal.Gen Cert.Layout Cert.SphHarm Idealize.ShloMosaic Idealize.ShloMosaic.ValueIdx

/-- The sixteen columns one trip computes from the chunk `v4` it loads, each a vector of length 1000. -/
def columns (v4 : Vec Ideal S1000x3 .f32) : Fin 16 → FVec Ideal S1000 .f32 :=
  ![k0_pay12, k0_pay13 v4, k0_pay14 v4, k0_pay15 v4, k0_pay16 v4, k0_pay17 v4, k0_pay18 v4, k0_pay19 v4, k0_pay20 (k0_pay9 v4) (k0_pay10 v4), k0_pay21 (k0_pay7 v4) (k0_pay9 v4) (k0_pay10 v4), k0_pay22 (k0_pay6 v4) (k0_pay7 v4) (k0_pay8 v4), k0_pay23 (k0_pay7 v4) (k0_pay11 v4), k0_pay24 (k0_pay8 v4) (k0_pay11 v4), k0_pay25 (k0_pay6 v4) (k0_pay11 v4), k0_pay26 (k0_pay8 v4) (k0_pay9 v4) (k0_pay10 v4), k0_pay27 (k0_pay6 v4) (k0_pay9 v4) (k0_pay10 v4)]

/-- The chunk one trip stores: the sixteen columns joined. -/
def chunk (v4 : Vec Ideal S1000x3 .f32) : FVec Ideal S1000x16 .f32 :=
  k0_pay1 k0_pay12 (k0_pay13 v4) (k0_pay14 v4) (k0_pay15 v4) (k0_pay16 v4) (k0_pay17 v4) (k0_pay18 v4) (k0_pay19 v4) (k0_pay20 (k0_pay9 v4) (k0_pay10 v4)) (k0_pay21 (k0_pay7 v4) (k0_pay9 v4) (k0_pay10 v4)) (k0_pay22 (k0_pay6 v4) (k0_pay7 v4) (k0_pay8 v4)) (k0_pay23 (k0_pay7 v4) (k0_pay11 v4)) (k0_pay24 (k0_pay8 v4) (k0_pay11 v4)) (k0_pay25 (k0_pay6 v4) (k0_pay11 v4)) (k0_pay26 (k0_pay8 v4) (k0_pay9 v4) (k0_pay10 v4)) (k0_pay27 (k0_pay6 v4) (k0_pay9 v4) (k0_pay10 v4))

variable (v4 : Vec Ideal S1000x3 .f32) (p : Fin 1000)

/-- The three columns of the loaded chunk, as vectors. -/
theorem a0_at : k0_pay2 v4 (ix1 p) = v4 (ix2 p 0) := column_apply 0 (0 : Fin 3) rfl v4 _ _ p
theorem a1_at : k0_pay3 v4 (ix1 p) = v4 (ix2 p 1) := column_apply 1 (1 : Fin 3) rfl v4 _ _ p
theorem a2_at : k0_pay4 v4 (ix1 p) = v4 (ix2 p 2) := column_apply 2 (2 : Fin 3) rfl v4 _ _ p

/-- The reciprocal length of row `p`. -/
theorem inv_at : k0_pay5 v4 (ix1 p) = invNorm (v4 (ix2 p 0)) (v4 (ix2 p 1)) (v4 (ix2 p 2)) := by
  show Ideal.rsqrt ((k0_pay2 v4 (ix1 p) * k0_pay2 v4 (ix1 p) + k0_pay3 v4 (ix1 p) * k0_pay3 v4 (ix1 p)) + k0_pay4 v4 (ix1 p) * k0_pay4 v4 (ix1 p)) = _
  rw [a0_at, a1_at, a2_at]
  rfl

/-- The normalised row. -/
abbrev X : EReal := v4 (ix2 p 0) * invNorm (v4 (ix2 p 0)) (v4 (ix2 p 1)) (v4 (ix2 p 2))
abbrev Y : EReal := v4 (ix2 p 1) * invNorm (v4 (ix2 p 0)) (v4 (ix2 p 1)) (v4 (ix2 p 2))
abbrev Z : EReal := v4 (ix2 p 2) * invNorm (v4 (ix2 p 0)) (v4 (ix2 p 1)) (v4 (ix2 p 2))

theorem x_at : k0_pay6 v4 (ix1 p) = X v4 p := by
  show k0_pay2 v4 (ix1 p) * k0_pay5 v4 (ix1 p) = _
  rw [a0_at, inv_at]
theorem y_at : k0_pay7 v4 (ix1 p) = Y v4 p := by
  show k0_pay3 v4 (ix1 p) * k0_pay5 v4 (ix1 p) = _
  rw [a1_at, inv_at]
theorem z_at : k0_pay8 v4 (ix1 p) = Z v4 p := by
  show k0_pay4 v4 (ix1 p) * k0_pay5 v4 (ix1 p) = _
  rw [a2_at, inv_at]

/-! The sixteen columns at row `p`. -/

theorem col0 : (k0_pay12 : FVec Ideal S1000 .f32) (ix1 p) = harm (X v4 p) (Y v4 p) (Z v4 p) 0 := by
  simp only [k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, mulf_apply, subf_apply, broadcast_apply, x_at, y_at, z_at]
  rfl

theorem col1 : (k0_pay13 v4 : FVec Ideal S1000 .f32) (ix1 p) = harm (X v4 p) (Y v4 p) (Z v4 p) 1 := by
  simp only [k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, mulf_apply, subf_apply, broadcast_apply, x_at, y_at, z_at]
  rfl

theorem col2 : (k0_pay14 v4 : FVec Ideal S1000 .f32) (ix1 p) = harm (X v4 p) (Y v4 p) (Z v4 p) 2 := by
  simp only [k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, mulf_apply, subf_apply, broadcast_apply, x_at, y_at, z_at]
  rfl

theorem col3 : (k0_pay15 v4 : FVec Ideal S1000 .f32) (ix1 p) = harm (X v4 p) (Y v4 p) (Z v4 p) 3 := by
  simp only [k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, mulf_apply, subf_apply, broadcast_apply, x_at, y_at, z_at]
  rfl

theorem col4 : (k0_pay16 v4 : FVec Ideal S1000 .f32) (ix1 p) = harm (X v4 p) (Y v4 p) (Z v4 p) 4 := by
  simp only [k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, mulf_apply, subf_apply, broadcast_apply, x_at, y_at, z_at]
  rfl

theorem col5 : (k0_pay17 v4 : FVec Ideal S1000 .f32) (ix1 p) = harm (X v4 p) (Y v4 p) (Z v4 p) 5 := by
  simp only [k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, mulf_apply, subf_apply, broadcast_apply, x_at, y_at, z_at]
  rfl

theorem col6 : (k0_pay18 v4 : FVec Ideal S1000 .f32) (ix1 p) = harm (X v4 p) (Y v4 p) (Z v4 p) 6 := by
  simp only [k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, mulf_apply, subf_apply, broadcast_apply, x_at, y_at, z_at]
  rfl

theorem col7 : (k0_pay19 v4 : FVec Ideal S1000 .f32) (ix1 p) = harm (X v4 p) (Y v4 p) (Z v4 p) 7 := by
  simp only [k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, mulf_apply, subf_apply, broadcast_apply, x_at, y_at, z_at]
  rfl

theorem col8 : (k0_pay20 (k0_pay9 v4) (k0_pay10 v4) : FVec Ideal S1000 .f32) (ix1 p) = harm (X v4 p) (Y v4 p) (Z v4 p) 8 := by
  simp only [k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, mulf_apply, subf_apply, broadcast_apply, x_at, y_at, z_at]
  rfl

theorem col9 : (k0_pay21 (k0_pay7 v4) (k0_pay9 v4) (k0_pay10 v4) : FVec Ideal S1000 .f32) (ix1 p) = harm (X v4 p) (Y v4 p) (Z v4 p) 9 := by
  simp only [k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, mulf_apply, subf_apply, broadcast_apply, x_at, y_at, z_at]
  rfl

theorem col10 : (k0_pay22 (k0_pay6 v4) (k0_pay7 v4) (k0_pay8 v4) : FVec Ideal S1000 .f32) (ix1 p) = harm (X v4 p) (Y v4 p) (Z v4 p) 10 := by
  simp only [k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, mulf_apply, subf_apply, broadcast_apply, x_at, y_at, z_at]
  rfl

theorem col11 : (k0_pay23 (k0_pay7 v4) (k0_pay11 v4) : FVec Ideal S1000 .f32) (ix1 p) = harm (X v4 p) (Y v4 p) (Z v4 p) 11 := by
  simp only [k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, mulf_apply, subf_apply, broadcast_apply, x_at, y_at, z_at]
  rfl

theorem col12 : (k0_pay24 (k0_pay8 v4) (k0_pay11 v4) : FVec Ideal S1000 .f32) (ix1 p) = harm (X v4 p) (Y v4 p) (Z v4 p) 12 := by
  simp only [k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, mulf_apply, subf_apply, broadcast_apply, x_at, y_at, z_at]
  rfl

theorem col13 : (k0_pay25 (k0_pay6 v4) (k0_pay11 v4) : FVec Ideal S1000 .f32) (ix1 p) = harm (X v4 p) (Y v4 p) (Z v4 p) 13 := by
  simp only [k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, mulf_apply, subf_apply, broadcast_apply, x_at, y_at, z_at]
  rfl

theorem col14 : (k0_pay26 (k0_pay8 v4) (k0_pay9 v4) (k0_pay10 v4) : FVec Ideal S1000 .f32) (ix1 p) = harm (X v4 p) (Y v4 p) (Z v4 p) 14 := by
  simp only [k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, mulf_apply, subf_apply, broadcast_apply, x_at, y_at, z_at]
  rfl

theorem col15 : (k0_pay27 (k0_pay6 v4) (k0_pay9 v4) (k0_pay10 v4) : FVec Ideal S1000 .f32) (ix1 p) = harm (X v4 p) (Y v4 p) (Z v4 p) 15 := by
  simp only [k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, mulf_apply, subf_apply, broadcast_apply, x_at, y_at, z_at]
  rfl

/-- Column `q` at row `p` is harmonic `q` of row `p`. -/
theorem columns_apply (q : Fin 16) : columns v4 q (ix1 p) = row (v4 (ix2 p 0)) (v4 (ix2 p 1)) (v4 (ix2 p 2)) q := by
  unfold row
  match q with
  | ⟨0, _⟩ => exact col0 v4 p
  | ⟨1, _⟩ => exact col1 v4 p
  | ⟨2, _⟩ => exact col2 v4 p
  | ⟨3, _⟩ => exact col3 v4 p
  | ⟨4, _⟩ => exact col4 v4 p
  | ⟨5, _⟩ => exact col5 v4 p
  | ⟨6, _⟩ => exact col6 v4 p
  | ⟨7, _⟩ => exact col7 v4 p
  | ⟨8, _⟩ => exact col8 v4 p
  | ⟨9, _⟩ => exact col9 v4 p
  | ⟨10, _⟩ => exact col10 v4 p
  | ⟨11, _⟩ => exact col11 v4 p
  | ⟨12, _⟩ => exact col12 v4 p
  | ⟨13, _⟩ => exact col13 v4 p
  | ⟨14, _⟩ => exact col14 v4 p
  | ⟨15, _⟩ => exact col15 v4 p
  | ⟨n + 16, h⟩ => exact absurd h (by omega)

/-- Entry `(p, q)` of the stored chunk is harmonic `q` of row `p` of the loaded chunk. -/
theorem chunk_apply (q : Fin 16) : chunk v4 (ix2 p q) = row (v4 (ix2 p 0)) (v4 (ix2 p 1)) (v4 (ix2 p 2)) q := by
  unfold chunk k0_pay1
  refine (concat16_columns_apply (n := 1000) (fun k => shapeCast S1000x1 (columns v4 k) shapeCasts_S1000_S1000x1) _ p q).trans ?_
  rw [shapeCast_col_apply]
  exact columns_apply v4 p q

end Cert.SphHarm.Kernel

end
-- ==== Proof.KernelBlock.lean ====
/-
  What the kernel's body leaves in the output block: the table of harmonics of the input block's rows.

  The body is a loop of ten trips.  Trip `k` loads rows `1000 k … 1000 k + 999` of the `[10000, 3]` input block and stores,
  at the same rows of the `[10000, 16]` output block, the chunk of harmonics of those rows.  A row of the table depends
  only on the same row of the input, so every stored piece is the table of the whole input block read at the piece's own
  rows; the ten pieces cover the block, so the block is that table.
-/
import proofs.«149268_j56805237457290_2_alg».proof.Proof.Gen.KernelIdeal.Frame
import proofs.«149268_j56805237457290_2_alg».proof.Proof.KernelChunk
import Idealize.ShloMosaic.Lib.Pipeline.Value

noncomputable section

namespace Cert.SphHarm.Kernel

open Cert.KernelIdeal Cert.KernelIdeal.Gen Cert.Layout Cert.SphHarm Idealize.ShloMosaic Idealize.ShloMosaic.ValueIdx
open Idealize.ShloMosaic.TcCoe Idealize.SL.Sem

/-- Rows `o … o + 999` of the input block give rows `o … o + 999` of the block's table: entry `(p, q)` of the chunk computed
    from the loaded rows is entry `(o + p, q)` of the table. -/
theorem rows_agree (x0 : Vec Ideal S10000x3 .f32) (off1 off2 : Fin 2 → ℕ) (o : ℕ) (h1 : off1 = ![o, 0]) (h2 : off2 = ![o, 0])
    (inb1 : ∀ a, off1 a + S1000x3.size a ≤ S10000x3.size a) (inb2 : ∀ a, off2 a + S1000x16.size a ≤ S10000x16.size a)
    (x : S1000x16.Idx) :
    chunk (View.ld x0 (Rect.unit (s := S10000x3) off1 S1000x3.size inb1)) x
      = table (n := 10000) x0 ((Rect.unit (s := S10000x16) off2 S1000x16.size inb2).emb x) := by
  subst h1 h2
  obtain ⟨p, q, rfl⟩ : ∃ (p : Fin 1000) (q : Fin 16), x = ix2 p q := ⟨x 0, x 1, eq_ix2 x⟩
  rw [chunk_apply]
  have hrow : o + p.val < 10000 := by
    have h := inb1 0
    have hp := p.isLt
    change o + 1000 ≤ 10000 at h
    omega
  have e : ∀ k : Fin 3, (Rect.unit (s := S10000x3) ![o, 0] S1000x3.size inb1).idx (ix2 p k) = ix2 (⟨o + p.val, hrow⟩ : Fin 10000) k :=
    fun k => funext fun a => Fin.ext (by
      match a with
      | ⟨0, _⟩ => show o + 1 * p.val = o + p.val; omega
      | ⟨1, _⟩ => show 0 + 1 * k.val = k.val; omega)
  have r0 : (Rect.unit (s := S10000x16) ![o, 0] S1000x16.size inb2).emb (ix2 p q) 0 = (⟨o + p.val, hrow⟩ : Fin 10000) :=
    Fin.ext (show o + 1 * p.val = o + p.val by omega)
  have r1 : (Rect.unit (s := S10000x16) ![o, 0] S1000x16.size inb2).emb (ix2 p q) 1 = q :=
    Fin.ext (show 0 + 1 * q.val = q.val by omega)
  show row (x0 _) (x0 _) (x0 _) q = row (x0 (ix2 _ 0)) (x0 (ix2 _ 1)) (x0 (ix2 _ 2)) _
  rw [e 0, e 1, e 2, r0, r1]

variable (c : Dev nD) (i : grid0.Coords) (arg1 : Memref sig .tc .vmem S10000x3 .f32) (harg1 : arg1.IsWhole)
  (arg2 : Memref sig .tc .vmem S10000x16 .f32) (harg2 : arg2.IsWhole)

/-- Trip `k` stores one piece: at rows `1000 k …` of the output block, the chunk of harmonics of the rows it loaded. -/
theorem trip_piece (Xc : BufTy.Contents (Elt Ideal) arg1.view.ty) (k : Fin k0_t1_loop.trips) :
    tripL_k0_t1 (F := Ideal) Variants.none c none i arg1 harg1 arg2 harg2 Xc k
      = [⟨Rect.unit (s := S10000x16) (k0_off2 k) S1000x16.size (k0_off2_inb k),
          chunk (View.readAt (Elt Ideal) arg1.view (Rect.unit (s := S10000x3) (k0_off1 k) S1000x3.size (k0_off1_inb k)).toLoadRect Xc)⟩] := by
  unfold tripL_k0_t1 trip_k0_t1
  rfl

/-- Every piece the first `n` trips store is the input block's table read at the piece's rows. -/
theorem pieces_agree (x0 : Vec Ideal S10000x3 .f32) : ∀ n : ℕ, n ≤ k0_t1_loop.trips →
    ∀ pc ∈ pb_k0_t1 (F := Ideal) Variants.none c none i arg1 harg1 arg2 harg2 (harg1.unread x0) n,
      ∀ x : pc.1.shape.Idx, pc.2 x = table (n := 10000) x0 (pc.1.emb x)
  | 0, _, pc, h, _ => absurd h (by rw [pb_k0_t1.eq_1]; exact List.not_mem_nil)
  | n + 1, hn, pc, h, x => by
    have hs := pb_k0_t1_succ (F := Ideal) Variants.none c none i arg1 harg1 arg2 harg2 (harg1.unread x0) ⟨n, hn⟩
    change pb_k0_t1 (F := Ideal) Variants.none c none i arg1 harg1 arg2 harg2 (harg1.unread x0) (n + 1) = _ at hs
    rw [hs, trip_piece, List.mem_append, List.mem_singleton] at h
    rcases h with rfl | h
    · show chunk (View.readAt (Elt Ideal) arg1.view (Rect.unit (s := S10000x3) (k0_off1 ⟨n, hn⟩) S1000x3.size (k0_off1_inb ⟨n, hn⟩)).toLoadRect (harg1.unread x0)) x = _
      rw [View.readAt_eq_ld, harg1.read_unread]
      exact rows_agree x0 (k0_off1 ⟨n, hn⟩) (k0_off2 ⟨n, hn⟩) (1000 * n) (k0_off1_eq ⟨n, hn⟩) (k0_off2_eq ⟨n, hn⟩) (k0_off1_inb ⟨n, hn⟩) (k0_off2_inb ⟨n, hn⟩) x
    · exact pieces_agree x0 n (Nat.le_of_succ_le hn) pc h x

/-- After the body the output block is the table of harmonics of the input block `x0`. -/
theorem block_eq (x0 : Vec Ideal S10000x3 .f32) :
    out0_A_1 (F := Ideal) c i arg1 harg1 arg2 harg2 x0 = table (n := 10000) x0 := by
  unfold out0_A_1
  rw [View.read_writes_junk_eq_canon]
  funext y
  refine View.canon_apply_of_pieces (table (n := 10000) x0) _ (fun pc hpc x => ?_) y (cover0_A_1 c i arg1 harg1 arg2 harg2 x0 y)
  exact pieces_agree c i arg1 harg1 arg2 harg2 x0 _ (le_refl _) pc hpc x

end Cert.SphHarm.Kernel

end
-- ==== Proof.KernelArray.lean ====
/-
  The kernel's result array: the table of harmonics of the argument's rows.

  Grid point `t` stages rows `10000 t … 10000 t + 9999` of the argument as its input block and writes its output block back
  to the same rows of the result.  The body leaves in the output block the table of the input block's rows, and a row of
  the table depends only on the same row of its argument, so what point `t` writes back is block `t` of the table of the
  whole argument.  The four hundred blocks cover the result (row `r` lies in block `r / 10000`), so the result array is
  that table.
-/
import proofs.«149268_j56805237457290_2_alg».proof.Proof.Gen.KernelIdeal.Value
import proofs.«149268_j56805237457290_2_alg».proof.Proof.KernelBlock

noncomputable section

namespace Cert.SphHarm.Kernel

open Cert.KernelIdeal Cert.KernelIdeal.Gen Cert.KernelIdeal.Value Cert.SphHarm Idealize.ShloMosaic Idealize.ShloMosaic.ValueIdx
open Idealize.ShloMosaic.TcCoe Idealize.SL.Sem
open Idealize.ShloMosaic.Pipeline (Dat)

/-- A block of rows of the table is the table of the block of rows: if `B` is `A` read at rows `o …` (all three columns)
    then the table of `B` at `(r, q)` is the table of `A` at `(o + r, q)`. -/
theorem table_rows (A : S4000000x3.Idx → EReal) (B : S10000x3.Idx → EReal) (e0 : S10000x3.Idx → S4000000x3.Idx)
    (e1 : S10000x16.Idx → S4000000x16.Idx) (o : ℕ) (hB : ∀ y, B y = A (e0 y))
    (h0 : ∀ y a, (e0 y a).val = (![o, 0] : Fin 2 → ℕ) a + (y a).val) (h1 : ∀ y a, (e1 y a).val = (![o, 0] : Fin 2 → ℕ) a + (y a).val)
    (j : S10000x16.Idx) : table (n := 10000) B j = table (n := 4000000) A (e1 j) := by
  have hidx : ∀ k : Fin 3, e0 (ix2 (j 0) k) = ix2 (e1 j 0) k := fun k => funext fun a => Fin.ext (by
    match a with
    | ⟨0, _⟩ =>
      have a0 := h0 (ix2 (j 0) k) 0
      have a1 := h1 j 0
      show (e0 (ix2 (j 0) k) 0).val = (e1 j 0).val
      rw [a0, a1]
    | ⟨1, _⟩ =>
      have a0 := h0 (ix2 (j 0) k) 1
      show (e0 (ix2 (j 0) k) 1).val = k.val
      rw [a0]
      show 0 + k.val = k.val
      omega)
  have hcol : e1 j 1 = j 1 := Fin.ext (by
    have a1 := h1 j 1
    rw [a1]
    show 0 + (j 1).val = (j 1).val
    omega)
  show row (B (ix2 (j 0) 0)) (B (ix2 (j 0) 1)) (B (ix2 (j 0) 2)) (j 1)
    = row (A (ix2 (e1 j 0) 0)) (A (ix2 (e1 j 0) 1)) (A (ix2 (e1 j 0) 2)) (e1 j 1)
  rw [hB, hB, hB, hidx 0, hidx 1, hidx 2, hcol]
  rfl

variable (m : (ℓ : Loc nD τ sig) → Buf (Elt Ideal) ℓ) (ρ : Dev nD → PrngReg)

/-- Both windows' block index at point `t` is `(t, 0)` (decided over the four hundred points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- What point `t` writes back is block `t` of the table of the argument. -/
theorem flushed_eq (c : Dev nD) (t : Fin cfg0.N) :
    (dats m 0 c).flushed 1 t = ((cfg0.win 1).blk t).view.read (Elt Ideal) (table (n := 4000000) (V m c main_arg0)) := by
  rw [flushed1_A, block_eq]
  obtain ⟨e00, e01, e10, e11⟩ := idx_facts t
  funext j
  refine table_rows (V m c main_arg0) (iblk m c 0 t) (((cfg0.win 0).blk t).view.emb) (((cfg0.win 1).blk t).view.emb) (t.val * 10000)
    (fun y => rfl) (fun y a => ?_) (fun y a => ?_) j
  · match a with
    | ⟨0, _⟩ => show win0_0.index t (0 : Fin 2) * 10000 + 1 * (y 0).val = t.val * 10000 + (y 0).val; rw [e00]; omega
    | ⟨1, _⟩ => show win0_0.index t (1 : Fin 2) * 3 + 1 * (y 1).val = 0 + (y 1).val; rw [e01]; omega
  · match a with
    | ⟨0, _⟩ => show win0_1.index t (0 : Fin 2) * 10000 + 1 * (y 0).val = t.val * 10000 + (y 0).val; rw [e10]; omega
    | ⟨1, _⟩ => show win0_1.index t (1 : Fin 2) * 16 + 1 * (y 1).val = 0 + (y 1).val; rw [e11]; omega

/-- An index of the result is in point `t`'s block iff each coordinate is in the block's range on its axis. -/
theorem mem_blk (t : Fin cfg0.N) (i : S4000000x16.Idx) :
    i ∈ ((cfg0.win 1).blk t).view.set ↔ ∀ a : Fin 2, win0_1.index t a * S10000x16.size a ≤ (i a).val
      ∧ (i a).val < win0_1.index t a * S10000x16.size a + S10000x16.size a := by
  show i ∈ ((View.whole main_v0).slice (win0_1.rect t)).set ↔ _
  rw [View.set_slice_whole, Rect.mem_set_unit]
  exact Iff.rfl

/-- Every index of the result lies in the block of the point its row names. -/
theorem covered (i : S4000000x16.Idx) :
    ∃ t : Fin cfg0.N, (cfg0.win 1).flush t = true ∧ i ∈ ((cfg0.win 1).blk t).view.set := by
  have hi0 : (i 0).val < 4000000 := (i 0).isLt
  have hi1 : (i 1).val < 16 := (i 1).isLt
  have hN : cfg0.N = 400 := N_0
  have ht : (i 0).val / 10000 < cfg0.N := by rw [hN]; omega
  obtain ⟨-, -, e10, e11⟩ := idx_facts ⟨(i 0).val / 10000, ht⟩
  refine ⟨⟨(i 0).val / 10000, ht⟩, flush0_1 _, ?_⟩
  rw [mem_blk]
  intro a
  match a with
  | ⟨0, _⟩ =>
    show win0_1.index ⟨(i 0).val / 10000, ht⟩ (0 : Fin 2) * 10000 ≤ (i 0).val
      ∧ (i 0).val < win0_1.index ⟨(i 0).val / 10000, ht⟩ (0 : Fin 2) * 10000 + 10000
    rw [e10]
    show (i 0).val / 10000 * 10000 ≤ (i 0).val ∧ (i 0).val < (i 0).val / 10000 * 10000 + 10000
    omega
  | ⟨1, _⟩ =>
    show win0_1.index ⟨(i 0).val / 10000, ht⟩ (1 : Fin 2) * 16 ≤ (i 1).val
      ∧ (i 1).val < win0_1.index ⟨(i 0).val / 10000, ht⟩ (1 : Fin 2) * 16 + 16
    rw [e11]
    omega

/-- The result array after the run is the table of harmonics of the argument as the region finds it. -/
theorem final (c : Dev nD) : (dats m 0 c).arrAt 1 cfg0.N = table (n := 4000000) (V m c main_arg0) :=
  (dats m 0 c).arrAt_eq_of_cover 1 (table (n := 4000000) (V m c main_arg0)) (fun t _ => flushed_eq m c t) covered

/-- The run, read: the result array at the table of harmonics of the argument's rows, the argument unchanged. -/
theorem run : θ_run defs (onTc (τ := τ) (main (F := Ideal))) ⟨m, fun _ => 0, ρ⟩ fun r => ∀ c : Dev nD,
      r.2.mem ((c : Thread nD τ).loc main_v0) = table (n := 4000000) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.SphHarm.Kernel

end
-- ==== Proof.RefValue.lean ====
/-
  The reference, read entry by entry: its result array is the table of harmonics of the argument's rows.

  The reference squares the argument, sums each row's three squares from zero, takes the reciprocal square root of the sum,
  scales the row by it, cuts the three columns of the scaled array out as vectors, forms the sixteen products over those
  vectors and joins them as the sixteen columns of the result.  The one difference from the table's own formula is the
  sum of a row's squares: zero plus the sum over the three columns, which is `(a₀² + a₁²) + a₂²` since addition of
  extended reals has zero as its unit and the sum over three indices is by definition taken in that order.
-/
import proofs.«149268_j56805237457290_2_alg».proof.Proof.Gen.ReferenceIdeal.Read
import proofs.«149268_j56805237457290_2_alg».proof.Proof.Spec
import proofs.«149268_j56805237457290_2_alg».proof.Proof.LibColumns
import Idealize.ShloMosaic.PureOps.Ideal.Laws

noncomputable section

namespace Cert.SphHarm.Ref

open Cert.ReferenceIdeal Cert.ReferenceIdeal.Read Cert.Layout Cert.SphHarm Idealize.ShloMosaic Idealize.ShloMosaic.ValueIdx

variable (X : (⟨S4000000x3, .f32⟩ : BufTy).Contents (Elt Ideal))

/-- The reciprocal length of row `p` of the argument, and the row scaled by it. -/
abbrev inv (p : Fin 4000000) : EReal := invNorm (X (ix2 p 0)) (X (ix2 p 1)) (X (ix2 p 2))
abbrev nx (p : Fin 4000000) : EReal := X (ix2 p 0) * inv X p
abbrev ny (p : Fin 4000000) : EReal := X (ix2 p 1) * inv X p
abbrev nz (p : Fin 4000000) : EReal := X (ix2 p 2) * inv X p

/-- The sum of row `i`'s squares from zero is the row's squared length. -/
theorem sum_at (i : S4000000.Idx) :
    val_main_v1 (F := Ideal) X i = sumsq (X (ix2 (i 0) 0)) (X (ix2 (i 0) 1)) (X (ix2 (i 0) 2)) := by
  rw [val_main_v1_apply, Fin.sum_univ_three]
  have e : ∀ k : Fin 3, idx_main_v1 i k = ix2 (i 0) k := fun k => funext fun a => by
    match a with
    | ⟨0, _⟩ => rfl
    | ⟨1, _⟩ => rfl
  rw [e 0, e 1, e 2]
  show Ideal.ofBits .f32 0x00000000#32 + (X _ * X _ + X _ * X _ + X _ * X _) = _
  rw [Ideal.ofBits_zero_f32, zero_add]
  rfl

/-- The scale of entry `j` is the reciprocal length of its row. -/
theorem inv_at (j : S4000000x3.Idx) : val_main_v4 (F := Ideal) X j = inv X (j 0) := by
  rw [val_main_v4_apply, val_main_v3_apply, val_main_v2_apply, sum_at]
  rfl

/-- The three columns of the scaled array, as vectors. -/
theorem x_at (i : S4000000.Idx) : val_main_v7 (F := Ideal) X i = nx X (i 0) := by
  rw [val_main_v7_apply, val_main_v6_apply, val_main_v5_apply, inv_at]
  have e : idx_main_v6 (idx_main_v7 i) = ix2 (i 0) 0 := funext fun a => by
    match a with
    | ⟨0, _⟩ => exact Fin.ext (Nat.div_one _)
    | ⟨1, _⟩ => rfl
  rw [e]
  rfl

theorem y_at (i : S4000000.Idx) : val_main_v9 (F := Ideal) X i = ny X (i 0) := by
  rw [val_main_v9_apply, val_main_v8_apply, val_main_v5_apply, inv_at]
  have e : idx_main_v8 (idx_main_v9 i) = ix2 (i 0) 1 := funext fun a => by
    match a with
    | ⟨0, _⟩ => exact Fin.ext (Nat.div_one _)
    | ⟨1, _⟩ => rfl
  rw [e]
  rfl

theorem z_at (i : S4000000.Idx) : val_main_v11 (F := Ideal) X i = nz X (i 0) := by
  rw [val_main_v11_apply, val_main_v10_apply, val_main_v5_apply, inv_at]
  have e : idx_main_v10 (idx_main_v11 i) = ix2 (i 0) 2 := funext fun a => by
    match a with
    | ⟨0, _⟩ => exact Fin.ext (Nat.div_one _)
    | ⟨1, _⟩ => rfl
  rw [e]
  rfl

/-! The sixteen columns of the result, each at row `i 0`. -/

theorem col0 (i : S4000000x1.Idx) : val_main_v83 (F := Ideal) i = harm (nx X (i 0)) (ny X (i 0)) (nz X (i 0)) 0 := by
  simp only [val_main_v12_apply, val_main_v13_apply, val_main_v14_apply, val_main_cst_0_apply, val_main_v15_apply, val_main_cst_1_apply, val_main_v16_apply, val_main_v17_apply, val_main_cst_2_apply, val_main_v18_apply, val_main_v19_apply, val_main_cst_3_apply, val_main_v20_apply, val_main_v21_apply, val_main_cst_4_apply, val_main_v22_apply, val_main_v23_apply, val_main_cst_5_apply, val_main_v24_apply, val_main_v25_apply, val_main_v26_apply, val_main_cst_6_apply, val_main_v27_apply, val_main_v28_apply, val_main_v29_apply, val_main_cst_7_apply, val_main_v30_apply, val_main_v31_apply, val_main_cst_8_apply, val_main_v32_apply, val_main_v33_apply, val_main_cst_9_apply, val_main_v34_apply, val_main_v35_apply, val_main_cst_10_apply, val_main_v36_apply, val_main_v37_apply, val_main_v38_apply, val_main_v39_apply, val_main_cst_11_apply, val_main_v40_apply, val_main_v41_apply, val_main_cst_12_apply, val_main_v42_apply, val_main_v43_apply, val_main_cst_13_apply, val_main_v44_apply, val_main_v45_apply, val_main_v46_apply, val_main_v47_apply, val_main_cst_14_apply, val_main_v48_apply, val_main_v49_apply, val_main_v50_apply, val_main_v51_apply, val_main_cst_15_apply, val_main_v52_apply, val_main_v53_apply, val_main_cst_16_apply, val_main_v54_apply, val_main_v55_apply, val_main_cst_17_apply, val_main_v56_apply, val_main_v57_apply, val_main_v58_apply, val_main_cst_18_apply, val_main_v59_apply, val_main_v60_apply, val_main_cst_19_apply, val_main_v61_apply, val_main_v62_apply, val_main_cst_20_apply, val_main_v63_apply, val_main_v64_apply, val_main_v65_apply, val_main_cst_21_apply, val_main_v66_apply, val_main_v67_apply, val_main_cst_22_apply, val_main_v68_apply, val_main_v69_apply, val_main_cst_23_apply, val_main_v70_apply, val_main_v71_apply, val_main_v72_apply, val_main_cst_24_apply, val_main_v73_apply, val_main_v74_apply, val_main_v75_apply, val_main_v76_apply, val_main_cst_25_apply, val_main_v77_apply, val_main_v78_apply, val_main_cst_26_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, x_at, y_at, z_at, Ideal.mulf_def, Ideal.subf_def, Ideal.ofBits_def]
  rfl

theorem col1 (i : S4000000x1.Idx) : val_main_v84 (F := Ideal) X i = harm (nx X (i 0)) (ny X (i 0)) (nz X (i 0)) 1 := by
  simp only [val_main_v12_apply, val_main_v13_apply, val_main_v14_apply, val_main_cst_0_apply, val_main_v15_apply, val_main_cst_1_apply, val_main_v16_apply, val_main_v17_apply, val_main_cst_2_apply, val_main_v18_apply, val_main_v19_apply, val_main_cst_3_apply, val_main_v20_apply, val_main_v21_apply, val_main_cst_4_apply, val_main_v22_apply, val_main_v23_apply, val_main_cst_5_apply, val_main_v24_apply, val_main_v25_apply, val_main_v26_apply, val_main_cst_6_apply, val_main_v27_apply, val_main_v28_apply, val_main_v29_apply, val_main_cst_7_apply, val_main_v30_apply, val_main_v31_apply, val_main_cst_8_apply, val_main_v32_apply, val_main_v33_apply, val_main_cst_9_apply, val_main_v34_apply, val_main_v35_apply, val_main_cst_10_apply, val_main_v36_apply, val_main_v37_apply, val_main_v38_apply, val_main_v39_apply, val_main_cst_11_apply, val_main_v40_apply, val_main_v41_apply, val_main_cst_12_apply, val_main_v42_apply, val_main_v43_apply, val_main_cst_13_apply, val_main_v44_apply, val_main_v45_apply, val_main_v46_apply, val_main_v47_apply, val_main_cst_14_apply, val_main_v48_apply, val_main_v49_apply, val_main_v50_apply, val_main_v51_apply, val_main_cst_15_apply, val_main_v52_apply, val_main_v53_apply, val_main_cst_16_apply, val_main_v54_apply, val_main_v55_apply, val_main_cst_17_apply, val_main_v56_apply, val_main_v57_apply, val_main_v58_apply, val_main_cst_18_apply, val_main_v59_apply, val_main_v60_apply, val_main_cst_19_apply, val_main_v61_apply, val_main_v62_apply, val_main_cst_20_apply, val_main_v63_apply, val_main_v64_apply, val_main_v65_apply, val_main_cst_21_apply, val_main_v66_apply, val_main_v67_apply, val_main_cst_22_apply, val_main_v68_apply, val_main_v69_apply, val_main_cst_23_apply, val_main_v70_apply, val_main_v71_apply, val_main_v72_apply, val_main_cst_24_apply, val_main_v73_apply, val_main_v74_apply, val_main_v75_apply, val_main_v76_apply, val_main_cst_25_apply, val_main_v77_apply, val_main_v78_apply, val_main_cst_26_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, x_at, y_at, z_at, Ideal.mulf_def, Ideal.subf_def, Ideal.ofBits_def]
  rfl

theorem col2 (i : S4000000x1.Idx) : val_main_v85 (F := Ideal) X i = harm (nx X (i 0)) (ny X (i 0)) (nz X (i 0)) 2 := by
  simp only [val_main_v12_apply, val_main_v13_apply, val_main_v14_apply, val_main_cst_0_apply, val_main_v15_apply, val_main_cst_1_apply, val_main_v16_apply, val_main_v17_apply, val_main_cst_2_apply, val_main_v18_apply, val_main_v19_apply, val_main_cst_3_apply, val_main_v20_apply, val_main_v21_apply, val_main_cst_4_apply, val_main_v22_apply, val_main_v23_apply, val_main_cst_5_apply, val_main_v24_apply, val_main_v25_apply, val_main_v26_apply, val_main_cst_6_apply, val_main_v27_apply, val_main_v28_apply, val_main_v29_apply, val_main_cst_7_apply, val_main_v30_apply, val_main_v31_apply, val_main_cst_8_apply, val_main_v32_apply, val_main_v33_apply, val_main_cst_9_apply, val_main_v34_apply, val_main_v35_apply, val_main_cst_10_apply, val_main_v36_apply, val_main_v37_apply, val_main_v38_apply, val_main_v39_apply, val_main_cst_11_apply, val_main_v40_apply, val_main_v41_apply, val_main_cst_12_apply, val_main_v42_apply, val_main_v43_apply, val_main_cst_13_apply, val_main_v44_apply, val_main_v45_apply, val_main_v46_apply, val_main_v47_apply, val_main_cst_14_apply, val_main_v48_apply, val_main_v49_apply, val_main_v50_apply, val_main_v51_apply, val_main_cst_15_apply, val_main_v52_apply, val_main_v53_apply, val_main_cst_16_apply, val_main_v54_apply, val_main_v55_apply, val_main_cst_17_apply, val_main_v56_apply, val_main_v57_apply, val_main_v58_apply, val_main_cst_18_apply, val_main_v59_apply, val_main_v60_apply, val_main_cst_19_apply, val_main_v61_apply, val_main_v62_apply, val_main_cst_20_apply, val_main_v63_apply, val_main_v64_apply, val_main_v65_apply, val_main_cst_21_apply, val_main_v66_apply, val_main_v67_apply, val_main_cst_22_apply, val_main_v68_apply, val_main_v69_apply, val_main_cst_23_apply, val_main_v70_apply, val_main_v71_apply, val_main_v72_apply, val_main_cst_24_apply, val_main_v73_apply, val_main_v74_apply, val_main_v75_apply, val_main_v76_apply, val_main_cst_25_apply, val_main_v77_apply, val_main_v78_apply, val_main_cst_26_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, x_at, y_at, z_at, Ideal.mulf_def, Ideal.subf_def, Ideal.ofBits_def]
  rfl

theorem col3 (i : S4000000x1.Idx) : val_main_v86 (F := Ideal) X i = harm (nx X (i 0)) (ny X (i 0)) (nz X (i 0)) 3 := by
  simp only [val_main_v12_apply, val_main_v13_apply, val_main_v14_apply, val_main_cst_0_apply, val_main_v15_apply, val_main_cst_1_apply, val_main_v16_apply, val_main_v17_apply, val_main_cst_2_apply, val_main_v18_apply, val_main_v19_apply, val_main_cst_3_apply, val_main_v20_apply, val_main_v21_apply, val_main_cst_4_apply, val_main_v22_apply, val_main_v23_apply, val_main_cst_5_apply, val_main_v24_apply, val_main_v25_apply, val_main_v26_apply, val_main_cst_6_apply, val_main_v27_apply, val_main_v28_apply, val_main_v29_apply, val_main_cst_7_apply, val_main_v30_apply, val_main_v31_apply, val_main_cst_8_apply, val_main_v32_apply, val_main_v33_apply, val_main_cst_9_apply, val_main_v34_apply, val_main_v35_apply, val_main_cst_10_apply, val_main_v36_apply, val_main_v37_apply, val_main_v38_apply, val_main_v39_apply, val_main_cst_11_apply, val_main_v40_apply, val_main_v41_apply, val_main_cst_12_apply, val_main_v42_apply, val_main_v43_apply, val_main_cst_13_apply, val_main_v44_apply, val_main_v45_apply, val_main_v46_apply, val_main_v47_apply, val_main_cst_14_apply, val_main_v48_apply, val_main_v49_apply, val_main_v50_apply, val_main_v51_apply, val_main_cst_15_apply, val_main_v52_apply, val_main_v53_apply, val_main_cst_16_apply, val_main_v54_apply, val_main_v55_apply, val_main_cst_17_apply, val_main_v56_apply, val_main_v57_apply, val_main_v58_apply, val_main_cst_18_apply, val_main_v59_apply, val_main_v60_apply, val_main_cst_19_apply, val_main_v61_apply, val_main_v62_apply, val_main_cst_20_apply, val_main_v63_apply, val_main_v64_apply, val_main_v65_apply, val_main_cst_21_apply, val_main_v66_apply, val_main_v67_apply, val_main_cst_22_apply, val_main_v68_apply, val_main_v69_apply, val_main_cst_23_apply, val_main_v70_apply, val_main_v71_apply, val_main_v72_apply, val_main_cst_24_apply, val_main_v73_apply, val_main_v74_apply, val_main_v75_apply, val_main_v76_apply, val_main_cst_25_apply, val_main_v77_apply, val_main_v78_apply, val_main_cst_26_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, x_at, y_at, z_at, Ideal.mulf_def, Ideal.subf_def, Ideal.ofBits_def]
  rfl

theorem col4 (i : S4000000x1.Idx) : val_main_v87 (F := Ideal) X i = harm (nx X (i 0)) (ny X (i 0)) (nz X (i 0)) 4 := by
  simp only [val_main_v12_apply, val_main_v13_apply, val_main_v14_apply, val_main_cst_0_apply, val_main_v15_apply, val_main_cst_1_apply, val_main_v16_apply, val_main_v17_apply, val_main_cst_2_apply, val_main_v18_apply, val_main_v19_apply, val_main_cst_3_apply, val_main_v20_apply, val_main_v21_apply, val_main_cst_4_apply, val_main_v22_apply, val_main_v23_apply, val_main_cst_5_apply, val_main_v24_apply, val_main_v25_apply, val_main_v26_apply, val_main_cst_6_apply, val_main_v27_apply, val_main_v28_apply, val_main_v29_apply, val_main_cst_7_apply, val_main_v30_apply, val_main_v31_apply, val_main_cst_8_apply, val_main_v32_apply, val_main_v33_apply, val_main_cst_9_apply, val_main_v34_apply, val_main_v35_apply, val_main_cst_10_apply, val_main_v36_apply, val_main_v37_apply, val_main_v38_apply, val_main_v39_apply, val_main_cst_11_apply, val_main_v40_apply, val_main_v41_apply, val_main_cst_12_apply, val_main_v42_apply, val_main_v43_apply, val_main_cst_13_apply, val_main_v44_apply, val_main_v45_apply, val_main_v46_apply, val_main_v47_apply, val_main_cst_14_apply, val_main_v48_apply, val_main_v49_apply, val_main_v50_apply, val_main_v51_apply, val_main_cst_15_apply, val_main_v52_apply, val_main_v53_apply, val_main_cst_16_apply, val_main_v54_apply, val_main_v55_apply, val_main_cst_17_apply, val_main_v56_apply, val_main_v57_apply, val_main_v58_apply, val_main_cst_18_apply, val_main_v59_apply, val_main_v60_apply, val_main_cst_19_apply, val_main_v61_apply, val_main_v62_apply, val_main_cst_20_apply, val_main_v63_apply, val_main_v64_apply, val_main_v65_apply, val_main_cst_21_apply, val_main_v66_apply, val_main_v67_apply, val_main_cst_22_apply, val_main_v68_apply, val_main_v69_apply, val_main_cst_23_apply, val_main_v70_apply, val_main_v71_apply, val_main_v72_apply, val_main_cst_24_apply, val_main_v73_apply, val_main_v74_apply, val_main_v75_apply, val_main_v76_apply, val_main_cst_25_apply, val_main_v77_apply, val_main_v78_apply, val_main_cst_26_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, x_at, y_at, z_at, Ideal.mulf_def, Ideal.subf_def, Ideal.ofBits_def]
  rfl

theorem col5 (i : S4000000x1.Idx) : val_main_v88 (F := Ideal) X i = harm (nx X (i 0)) (ny X (i 0)) (nz X (i 0)) 5 := by
  simp only [val_main_v12_apply, val_main_v13_apply, val_main_v14_apply, val_main_cst_0_apply, val_main_v15_apply, val_main_cst_1_apply, val_main_v16_apply, val_main_v17_apply, val_main_cst_2_apply, val_main_v18_apply, val_main_v19_apply, val_main_cst_3_apply, val_main_v20_apply, val_main_v21_apply, val_main_cst_4_apply, val_main_v22_apply, val_main_v23_apply, val_main_cst_5_apply, val_main_v24_apply, val_main_v25_apply, val_main_v26_apply, val_main_cst_6_apply, val_main_v27_apply, val_main_v28_apply, val_main_v29_apply, val_main_cst_7_apply, val_main_v30_apply, val_main_v31_apply, val_main_cst_8_apply, val_main_v32_apply, val_main_v33_apply, val_main_cst_9_apply, val_main_v34_apply, val_main_v35_apply, val_main_cst_10_apply, val_main_v36_apply, val_main_v37_apply, val_main_v38_apply, val_main_v39_apply, val_main_cst_11_apply, val_main_v40_apply, val_main_v41_apply, val_main_cst_12_apply, val_main_v42_apply, val_main_v43_apply, val_main_cst_13_apply, val_main_v44_apply, val_main_v45_apply, val_main_v46_apply, val_main_v47_apply, val_main_cst_14_apply, val_main_v48_apply, val_main_v49_apply, val_main_v50_apply, val_main_v51_apply, val_main_cst_15_apply, val_main_v52_apply, val_main_v53_apply, val_main_cst_16_apply, val_main_v54_apply, val_main_v55_apply, val_main_cst_17_apply, val_main_v56_apply, val_main_v57_apply, val_main_v58_apply, val_main_cst_18_apply, val_main_v59_apply, val_main_v60_apply, val_main_cst_19_apply, val_main_v61_apply, val_main_v62_apply, val_main_cst_20_apply, val_main_v63_apply, val_main_v64_apply, val_main_v65_apply, val_main_cst_21_apply, val_main_v66_apply, val_main_v67_apply, val_main_cst_22_apply, val_main_v68_apply, val_main_v69_apply, val_main_cst_23_apply, val_main_v70_apply, val_main_v71_apply, val_main_v72_apply, val_main_cst_24_apply, val_main_v73_apply, val_main_v74_apply, val_main_v75_apply, val_main_v76_apply, val_main_cst_25_apply, val_main_v77_apply, val_main_v78_apply, val_main_cst_26_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, x_at, y_at, z_at, Ideal.mulf_def, Ideal.subf_def, Ideal.ofBits_def]
  rfl

theorem col6 (i : S4000000x1.Idx) : val_main_v89 (F := Ideal) X i = harm (nx X (i 0)) (ny X (i 0)) (nz X (i 0)) 6 := by
  simp only [val_main_v12_apply, val_main_v13_apply, val_main_v14_apply, val_main_cst_0_apply, val_main_v15_apply, val_main_cst_1_apply, val_main_v16_apply, val_main_v17_apply, val_main_cst_2_apply, val_main_v18_apply, val_main_v19_apply, val_main_cst_3_apply, val_main_v20_apply, val_main_v21_apply, val_main_cst_4_apply, val_main_v22_apply, val_main_v23_apply, val_main_cst_5_apply, val_main_v24_apply, val_main_v25_apply, val_main_v26_apply, val_main_cst_6_apply, val_main_v27_apply, val_main_v28_apply, val_main_v29_apply, val_main_cst_7_apply, val_main_v30_apply, val_main_v31_apply, val_main_cst_8_apply, val_main_v32_apply, val_main_v33_apply, val_main_cst_9_apply, val_main_v34_apply, val_main_v35_apply, val_main_cst_10_apply, val_main_v36_apply, val_main_v37_apply, val_main_v38_apply, val_main_v39_apply, val_main_cst_11_apply, val_main_v40_apply, val_main_v41_apply, val_main_cst_12_apply, val_main_v42_apply, val_main_v43_apply, val_main_cst_13_apply, val_main_v44_apply, val_main_v45_apply, val_main_v46_apply, val_main_v47_apply, val_main_cst_14_apply, val_main_v48_apply, val_main_v49_apply, val_main_v50_apply, val_main_v51_apply, val_main_cst_15_apply, val_main_v52_apply, val_main_v53_apply, val_main_cst_16_apply, val_main_v54_apply, val_main_v55_apply, val_main_cst_17_apply, val_main_v56_apply, val_main_v57_apply, val_main_v58_apply, val_main_cst_18_apply, val_main_v59_apply, val_main_v60_apply, val_main_cst_19_apply, val_main_v61_apply, val_main_v62_apply, val_main_cst_20_apply, val_main_v63_apply, val_main_v64_apply, val_main_v65_apply, val_main_cst_21_apply, val_main_v66_apply, val_main_v67_apply, val_main_cst_22_apply, val_main_v68_apply, val_main_v69_apply, val_main_cst_23_apply, val_main_v70_apply, val_main_v71_apply, val_main_v72_apply, val_main_cst_24_apply, val_main_v73_apply, val_main_v74_apply, val_main_v75_apply, val_main_v76_apply, val_main_cst_25_apply, val_main_v77_apply, val_main_v78_apply, val_main_cst_26_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, x_at, y_at, z_at, Ideal.mulf_def, Ideal.subf_def, Ideal.ofBits_def]
  rfl

theorem col7 (i : S4000000x1.Idx) : val_main_v90 (F := Ideal) X i = harm (nx X (i 0)) (ny X (i 0)) (nz X (i 0)) 7 := by
  simp only [val_main_v12_apply, val_main_v13_apply, val_main_v14_apply, val_main_cst_0_apply, val_main_v15_apply, val_main_cst_1_apply, val_main_v16_apply, val_main_v17_apply, val_main_cst_2_apply, val_main_v18_apply, val_main_v19_apply, val_main_cst_3_apply, val_main_v20_apply, val_main_v21_apply, val_main_cst_4_apply, val_main_v22_apply, val_main_v23_apply, val_main_cst_5_apply, val_main_v24_apply, val_main_v25_apply, val_main_v26_apply, val_main_cst_6_apply, val_main_v27_apply, val_main_v28_apply, val_main_v29_apply, val_main_cst_7_apply, val_main_v30_apply, val_main_v31_apply, val_main_cst_8_apply, val_main_v32_apply, val_main_v33_apply, val_main_cst_9_apply, val_main_v34_apply, val_main_v35_apply, val_main_cst_10_apply, val_main_v36_apply, val_main_v37_apply, val_main_v38_apply, val_main_v39_apply, val_main_cst_11_apply, val_main_v40_apply, val_main_v41_apply, val_main_cst_12_apply, val_main_v42_apply, val_main_v43_apply, val_main_cst_13_apply, val_main_v44_apply, val_main_v45_apply, val_main_v46_apply, val_main_v47_apply, val_main_cst_14_apply, val_main_v48_apply, val_main_v49_apply, val_main_v50_apply, val_main_v51_apply, val_main_cst_15_apply, val_main_v52_apply, val_main_v53_apply, val_main_cst_16_apply, val_main_v54_apply, val_main_v55_apply, val_main_cst_17_apply, val_main_v56_apply, val_main_v57_apply, val_main_v58_apply, val_main_cst_18_apply, val_main_v59_apply, val_main_v60_apply, val_main_cst_19_apply, val_main_v61_apply, val_main_v62_apply, val_main_cst_20_apply, val_main_v63_apply, val_main_v64_apply, val_main_v65_apply, val_main_cst_21_apply, val_main_v66_apply, val_main_v67_apply, val_main_cst_22_apply, val_main_v68_apply, val_main_v69_apply, val_main_cst_23_apply, val_main_v70_apply, val_main_v71_apply, val_main_v72_apply, val_main_cst_24_apply, val_main_v73_apply, val_main_v74_apply, val_main_v75_apply, val_main_v76_apply, val_main_cst_25_apply, val_main_v77_apply, val_main_v78_apply, val_main_cst_26_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, x_at, y_at, z_at, Ideal.mulf_def, Ideal.subf_def, Ideal.ofBits_def]
  rfl

theorem col8 (i : S4000000x1.Idx) : val_main_v91 (F := Ideal) X i = harm (nx X (i 0)) (ny X (i 0)) (nz X (i 0)) 8 := by
  simp only [val_main_v12_apply, val_main_v13_apply, val_main_v14_apply, val_main_cst_0_apply, val_main_v15_apply, val_main_cst_1_apply, val_main_v16_apply, val_main_v17_apply, val_main_cst_2_apply, val_main_v18_apply, val_main_v19_apply, val_main_cst_3_apply, val_main_v20_apply, val_main_v21_apply, val_main_cst_4_apply, val_main_v22_apply, val_main_v23_apply, val_main_cst_5_apply, val_main_v24_apply, val_main_v25_apply, val_main_v26_apply, val_main_cst_6_apply, val_main_v27_apply, val_main_v28_apply, val_main_v29_apply, val_main_cst_7_apply, val_main_v30_apply, val_main_v31_apply, val_main_cst_8_apply, val_main_v32_apply, val_main_v33_apply, val_main_cst_9_apply, val_main_v34_apply, val_main_v35_apply, val_main_cst_10_apply, val_main_v36_apply, val_main_v37_apply, val_main_v38_apply, val_main_v39_apply, val_main_cst_11_apply, val_main_v40_apply, val_main_v41_apply, val_main_cst_12_apply, val_main_v42_apply, val_main_v43_apply, val_main_cst_13_apply, val_main_v44_apply, val_main_v45_apply, val_main_v46_apply, val_main_v47_apply, val_main_cst_14_apply, val_main_v48_apply, val_main_v49_apply, val_main_v50_apply, val_main_v51_apply, val_main_cst_15_apply, val_main_v52_apply, val_main_v53_apply, val_main_cst_16_apply, val_main_v54_apply, val_main_v55_apply, val_main_cst_17_apply, val_main_v56_apply, val_main_v57_apply, val_main_v58_apply, val_main_cst_18_apply, val_main_v59_apply, val_main_v60_apply, val_main_cst_19_apply, val_main_v61_apply, val_main_v62_apply, val_main_cst_20_apply, val_main_v63_apply, val_main_v64_apply, val_main_v65_apply, val_main_cst_21_apply, val_main_v66_apply, val_main_v67_apply, val_main_cst_22_apply, val_main_v68_apply, val_main_v69_apply, val_main_cst_23_apply, val_main_v70_apply, val_main_v71_apply, val_main_v72_apply, val_main_cst_24_apply, val_main_v73_apply, val_main_v74_apply, val_main_v75_apply, val_main_v76_apply, val_main_cst_25_apply, val_main_v77_apply, val_main_v78_apply, val_main_cst_26_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, x_at, y_at, z_at, Ideal.mulf_def, Ideal.subf_def, Ideal.ofBits_def]
  rfl

theorem col9 (i : S4000000x1.Idx) : val_main_v92 (F := Ideal) X i = harm (nx X (i 0)) (ny X (i 0)) (nz X (i 0)) 9 := by
  simp only [val_main_v12_apply, val_main_v13_apply, val_main_v14_apply, val_main_cst_0_apply, val_main_v15_apply, val_main_cst_1_apply, val_main_v16_apply, val_main_v17_apply, val_main_cst_2_apply, val_main_v18_apply, val_main_v19_apply, val_main_cst_3_apply, val_main_v20_apply, val_main_v21_apply, val_main_cst_4_apply, val_main_v22_apply, val_main_v23_apply, val_main_cst_5_apply, val_main_v24_apply, val_main_v25_apply, val_main_v26_apply, val_main_cst_6_apply, val_main_v27_apply, val_main_v28_apply, val_main_v29_apply, val_main_cst_7_apply, val_main_v30_apply, val_main_v31_apply, val_main_cst_8_apply, val_main_v32_apply, val_main_v33_apply, val_main_cst_9_apply, val_main_v34_apply, val_main_v35_apply, val_main_cst_10_apply, val_main_v36_apply, val_main_v37_apply, val_main_v38_apply, val_main_v39_apply, val_main_cst_11_apply, val_main_v40_apply, val_main_v41_apply, val_main_cst_12_apply, val_main_v42_apply, val_main_v43_apply, val_main_cst_13_apply, val_main_v44_apply, val_main_v45_apply, val_main_v46_apply, val_main_v47_apply, val_main_cst_14_apply, val_main_v48_apply, val_main_v49_apply, val_main_v50_apply, val_main_v51_apply, val_main_cst_15_apply, val_main_v52_apply, val_main_v53_apply, val_main_cst_16_apply, val_main_v54_apply, val_main_v55_apply, val_main_cst_17_apply, val_main_v56_apply, val_main_v57_apply, val_main_v58_apply, val_main_cst_18_apply, val_main_v59_apply, val_main_v60_apply, val_main_cst_19_apply, val_main_v61_apply, val_main_v62_apply, val_main_cst_20_apply, val_main_v63_apply, val_main_v64_apply, val_main_v65_apply, val_main_cst_21_apply, val_main_v66_apply, val_main_v67_apply, val_main_cst_22_apply, val_main_v68_apply, val_main_v69_apply, val_main_cst_23_apply, val_main_v70_apply, val_main_v71_apply, val_main_v72_apply, val_main_cst_24_apply, val_main_v73_apply, val_main_v74_apply, val_main_v75_apply, val_main_v76_apply, val_main_cst_25_apply, val_main_v77_apply, val_main_v78_apply, val_main_cst_26_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, x_at, y_at, z_at, Ideal.mulf_def, Ideal.subf_def, Ideal.ofBits_def]
  rfl

theorem col10 (i : S4000000x1.Idx) : val_main_v93 (F := Ideal) X i = harm (nx X (i 0)) (ny X (i 0)) (nz X (i 0)) 10 := by
  simp only [val_main_v12_apply, val_main_v13_apply, val_main_v14_apply, val_main_cst_0_apply, val_main_v15_apply, val_main_cst_1_apply, val_main_v16_apply, val_main_v17_apply, val_main_cst_2_apply, val_main_v18_apply, val_main_v19_apply, val_main_cst_3_apply, val_main_v20_apply, val_main_v21_apply, val_main_cst_4_apply, val_main_v22_apply, val_main_v23_apply, val_main_cst_5_apply, val_main_v24_apply, val_main_v25_apply, val_main_v26_apply, val_main_cst_6_apply, val_main_v27_apply, val_main_v28_apply, val_main_v29_apply, val_main_cst_7_apply, val_main_v30_apply, val_main_v31_apply, val_main_cst_8_apply, val_main_v32_apply, val_main_v33_apply, val_main_cst_9_apply, val_main_v34_apply, val_main_v35_apply, val_main_cst_10_apply, val_main_v36_apply, val_main_v37_apply, val_main_v38_apply, val_main_v39_apply, val_main_cst_11_apply, val_main_v40_apply, val_main_v41_apply, val_main_cst_12_apply, val_main_v42_apply, val_main_v43_apply, val_main_cst_13_apply, val_main_v44_apply, val_main_v45_apply, val_main_v46_apply, val_main_v47_apply, val_main_cst_14_apply, val_main_v48_apply, val_main_v49_apply, val_main_v50_apply, val_main_v51_apply, val_main_cst_15_apply, val_main_v52_apply, val_main_v53_apply, val_main_cst_16_apply, val_main_v54_apply, val_main_v55_apply, val_main_cst_17_apply, val_main_v56_apply, val_main_v57_apply, val_main_v58_apply, val_main_cst_18_apply, val_main_v59_apply, val_main_v60_apply, val_main_cst_19_apply, val_main_v61_apply, val_main_v62_apply, val_main_cst_20_apply, val_main_v63_apply, val_main_v64_apply, val_main_v65_apply, val_main_cst_21_apply, val_main_v66_apply, val_main_v67_apply, val_main_cst_22_apply, val_main_v68_apply, val_main_v69_apply, val_main_cst_23_apply, val_main_v70_apply, val_main_v71_apply, val_main_v72_apply, val_main_cst_24_apply, val_main_v73_apply, val_main_v74_apply, val_main_v75_apply, val_main_v76_apply, val_main_cst_25_apply, val_main_v77_apply, val_main_v78_apply, val_main_cst_26_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, x_at, y_at, z_at, Ideal.mulf_def, Ideal.subf_def, Ideal.ofBits_def]
  rfl

theorem col11 (i : S4000000x1.Idx) : val_main_v94 (F := Ideal) X i = harm (nx X (i 0)) (ny X (i 0)) (nz X (i 0)) 11 := by
  simp only [val_main_v12_apply, val_main_v13_apply, val_main_v14_apply, val_main_cst_0_apply, val_main_v15_apply, val_main_cst_1_apply, val_main_v16_apply, val_main_v17_apply, val_main_cst_2_apply, val_main_v18_apply, val_main_v19_apply, val_main_cst_3_apply, val_main_v20_apply, val_main_v21_apply, val_main_cst_4_apply, val_main_v22_apply, val_main_v23_apply, val_main_cst_5_apply, val_main_v24_apply, val_main_v25_apply, val_main_v26_apply, val_main_cst_6_apply, val_main_v27_apply, val_main_v28_apply, val_main_v29_apply, val_main_cst_7_apply, val_main_v30_apply, val_main_v31_apply, val_main_cst_8_apply, val_main_v32_apply, val_main_v33_apply, val_main_cst_9_apply, val_main_v34_apply, val_main_v35_apply, val_main_cst_10_apply, val_main_v36_apply, val_main_v37_apply, val_main_v38_apply, val_main_v39_apply, val_main_cst_11_apply, val_main_v40_apply, val_main_v41_apply, val_main_cst_12_apply, val_main_v42_apply, val_main_v43_apply, val_main_cst_13_apply, val_main_v44_apply, val_main_v45_apply, val_main_v46_apply, val_main_v47_apply, val_main_cst_14_apply, val_main_v48_apply, val_main_v49_apply, val_main_v50_apply, val_main_v51_apply, val_main_cst_15_apply, val_main_v52_apply, val_main_v53_apply, val_main_cst_16_apply, val_main_v54_apply, val_main_v55_apply, val_main_cst_17_apply, val_main_v56_apply, val_main_v57_apply, val_main_v58_apply, val_main_cst_18_apply, val_main_v59_apply, val_main_v60_apply, val_main_cst_19_apply, val_main_v61_apply, val_main_v62_apply, val_main_cst_20_apply, val_main_v63_apply, val_main_v64_apply, val_main_v65_apply, val_main_cst_21_apply, val_main_v66_apply, val_main_v67_apply, val_main_cst_22_apply, val_main_v68_apply, val_main_v69_apply, val_main_cst_23_apply, val_main_v70_apply, val_main_v71_apply, val_main_v72_apply, val_main_cst_24_apply, val_main_v73_apply, val_main_v74_apply, val_main_v75_apply, val_main_v76_apply, val_main_cst_25_apply, val_main_v77_apply, val_main_v78_apply, val_main_cst_26_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, x_at, y_at, z_at, Ideal.mulf_def, Ideal.subf_def, Ideal.ofBits_def]
  rfl

theorem col12 (i : S4000000x1.Idx) : val_main_v95 (F := Ideal) X i = harm (nx X (i 0)) (ny X (i 0)) (nz X (i 0)) 12 := by
  simp only [val_main_v12_apply, val_main_v13_apply, val_main_v14_apply, val_main_cst_0_apply, val_main_v15_apply, val_main_cst_1_apply, val_main_v16_apply, val_main_v17_apply, val_main_cst_2_apply, val_main_v18_apply, val_main_v19_apply, val_main_cst_3_apply, val_main_v20_apply, val_main_v21_apply, val_main_cst_4_apply, val_main_v22_apply, val_main_v23_apply, val_main_cst_5_apply, val_main_v24_apply, val_main_v25_apply, val_main_v26_apply, val_main_cst_6_apply, val_main_v27_apply, val_main_v28_apply, val_main_v29_apply, val_main_cst_7_apply, val_main_v30_apply, val_main_v31_apply, val_main_cst_8_apply, val_main_v32_apply, val_main_v33_apply, val_main_cst_9_apply, val_main_v34_apply, val_main_v35_apply, val_main_cst_10_apply, val_main_v36_apply, val_main_v37_apply, val_main_v38_apply, val_main_v39_apply, val_main_cst_11_apply, val_main_v40_apply, val_main_v41_apply, val_main_cst_12_apply, val_main_v42_apply, val_main_v43_apply, val_main_cst_13_apply, val_main_v44_apply, val_main_v45_apply, val_main_v46_apply, val_main_v47_apply, val_main_cst_14_apply, val_main_v48_apply, val_main_v49_apply, val_main_v50_apply, val_main_v51_apply, val_main_cst_15_apply, val_main_v52_apply, val_main_v53_apply, val_main_cst_16_apply, val_main_v54_apply, val_main_v55_apply, val_main_cst_17_apply, val_main_v56_apply, val_main_v57_apply, val_main_v58_apply, val_main_cst_18_apply, val_main_v59_apply, val_main_v60_apply, val_main_cst_19_apply, val_main_v61_apply, val_main_v62_apply, val_main_cst_20_apply, val_main_v63_apply, val_main_v64_apply, val_main_v65_apply, val_main_cst_21_apply, val_main_v66_apply, val_main_v67_apply, val_main_cst_22_apply, val_main_v68_apply, val_main_v69_apply, val_main_cst_23_apply, val_main_v70_apply, val_main_v71_apply, val_main_v72_apply, val_main_cst_24_apply, val_main_v73_apply, val_main_v74_apply, val_main_v75_apply, val_main_v76_apply, val_main_cst_25_apply, val_main_v77_apply, val_main_v78_apply, val_main_cst_26_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, x_at, y_at, z_at, Ideal.mulf_def, Ideal.subf_def, Ideal.ofBits_def]
  rfl

theorem col13 (i : S4000000x1.Idx) : val_main_v96 (F := Ideal) X i = harm (nx X (i 0)) (ny X (i 0)) (nz X (i 0)) 13 := by
  simp only [val_main_v12_apply, val_main_v13_apply, val_main_v14_apply, val_main_cst_0_apply, val_main_v15_apply, val_main_cst_1_apply, val_main_v16_apply, val_main_v17_apply, val_main_cst_2_apply, val_main_v18_apply, val_main_v19_apply, val_main_cst_3_apply, val_main_v20_apply, val_main_v21_apply, val_main_cst_4_apply, val_main_v22_apply, val_main_v23_apply, val_main_cst_5_apply, val_main_v24_apply, val_main_v25_apply, val_main_v26_apply, val_main_cst_6_apply, val_main_v27_apply, val_main_v28_apply, val_main_v29_apply, val_main_cst_7_apply, val_main_v30_apply, val_main_v31_apply, val_main_cst_8_apply, val_main_v32_apply, val_main_v33_apply, val_main_cst_9_apply, val_main_v34_apply, val_main_v35_apply, val_main_cst_10_apply, val_main_v36_apply, val_main_v37_apply, val_main_v38_apply, val_main_v39_apply, val_main_cst_11_apply, val_main_v40_apply, val_main_v41_apply, val_main_cst_12_apply, val_main_v42_apply, val_main_v43_apply, val_main_cst_13_apply, val_main_v44_apply, val_main_v45_apply, val_main_v46_apply, val_main_v47_apply, val_main_cst_14_apply, val_main_v48_apply, val_main_v49_apply, val_main_v50_apply, val_main_v51_apply, val_main_cst_15_apply, val_main_v52_apply, val_main_v53_apply, val_main_cst_16_apply, val_main_v54_apply, val_main_v55_apply, val_main_cst_17_apply, val_main_v56_apply, val_main_v57_apply, val_main_v58_apply, val_main_cst_18_apply, val_main_v59_apply, val_main_v60_apply, val_main_cst_19_apply, val_main_v61_apply, val_main_v62_apply, val_main_cst_20_apply, val_main_v63_apply, val_main_v64_apply, val_main_v65_apply, val_main_cst_21_apply, val_main_v66_apply, val_main_v67_apply, val_main_cst_22_apply, val_main_v68_apply, val_main_v69_apply, val_main_cst_23_apply, val_main_v70_apply, val_main_v71_apply, val_main_v72_apply, val_main_cst_24_apply, val_main_v73_apply, val_main_v74_apply, val_main_v75_apply, val_main_v76_apply, val_main_cst_25_apply, val_main_v77_apply, val_main_v78_apply, val_main_cst_26_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, x_at, y_at, z_at, Ideal.mulf_def, Ideal.subf_def, Ideal.ofBits_def]
  rfl

theorem col14 (i : S4000000x1.Idx) : val_main_v97 (F := Ideal) X i = harm (nx X (i 0)) (ny X (i 0)) (nz X (i 0)) 14 := by
  simp only [val_main_v12_apply, val_main_v13_apply, val_main_v14_apply, val_main_cst_0_apply, val_main_v15_apply, val_main_cst_1_apply, val_main_v16_apply, val_main_v17_apply, val_main_cst_2_apply, val_main_v18_apply, val_main_v19_apply, val_main_cst_3_apply, val_main_v20_apply, val_main_v21_apply, val_main_cst_4_apply, val_main_v22_apply, val_main_v23_apply, val_main_cst_5_apply, val_main_v24_apply, val_main_v25_apply, val_main_v26_apply, val_main_cst_6_apply, val_main_v27_apply, val_main_v28_apply, val_main_v29_apply, val_main_cst_7_apply, val_main_v30_apply, val_main_v31_apply, val_main_cst_8_apply, val_main_v32_apply, val_main_v33_apply, val_main_cst_9_apply, val_main_v34_apply, val_main_v35_apply, val_main_cst_10_apply, val_main_v36_apply, val_main_v37_apply, val_main_v38_apply, val_main_v39_apply, val_main_cst_11_apply, val_main_v40_apply, val_main_v41_apply, val_main_cst_12_apply, val_main_v42_apply, val_main_v43_apply, val_main_cst_13_apply, val_main_v44_apply, val_main_v45_apply, val_main_v46_apply, val_main_v47_apply, val_main_cst_14_apply, val_main_v48_apply, val_main_v49_apply, val_main_v50_apply, val_main_v51_apply, val_main_cst_15_apply, val_main_v52_apply, val_main_v53_apply, val_main_cst_16_apply, val_main_v54_apply, val_main_v55_apply, val_main_cst_17_apply, val_main_v56_apply, val_main_v57_apply, val_main_v58_apply, val_main_cst_18_apply, val_main_v59_apply, val_main_v60_apply, val_main_cst_19_apply, val_main_v61_apply, val_main_v62_apply, val_main_cst_20_apply, val_main_v63_apply, val_main_v64_apply, val_main_v65_apply, val_main_cst_21_apply, val_main_v66_apply, val_main_v67_apply, val_main_cst_22_apply, val_main_v68_apply, val_main_v69_apply, val_main_cst_23_apply, val_main_v70_apply, val_main_v71_apply, val_main_v72_apply, val_main_cst_24_apply, val_main_v73_apply, val_main_v74_apply, val_main_v75_apply, val_main_v76_apply, val_main_cst_25_apply, val_main_v77_apply, val_main_v78_apply, val_main_cst_26_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, x_at, y_at, z_at, Ideal.mulf_def, Ideal.subf_def, Ideal.ofBits_def]
  rfl

theorem col15 (i : S4000000x1.Idx) : val_main_v98 (F := Ideal) X i = harm (nx X (i 0)) (ny X (i 0)) (nz X (i 0)) 15 := by
  simp only [val_main_v12_apply, val_main_v13_apply, val_main_v14_apply, val_main_cst_0_apply, val_main_v15_apply, val_main_cst_1_apply, val_main_v16_apply, val_main_v17_apply, val_main_cst_2_apply, val_main_v18_apply, val_main_v19_apply, val_main_cst_3_apply, val_main_v20_apply, val_main_v21_apply, val_main_cst_4_apply, val_main_v22_apply, val_main_v23_apply, val_main_cst_5_apply, val_main_v24_apply, val_main_v25_apply, val_main_v26_apply, val_main_cst_6_apply, val_main_v27_apply, val_main_v28_apply, val_main_v29_apply, val_main_cst_7_apply, val_main_v30_apply, val_main_v31_apply, val_main_cst_8_apply, val_main_v32_apply, val_main_v33_apply, val_main_cst_9_apply, val_main_v34_apply, val_main_v35_apply, val_main_cst_10_apply, val_main_v36_apply, val_main_v37_apply, val_main_v38_apply, val_main_v39_apply, val_main_cst_11_apply, val_main_v40_apply, val_main_v41_apply, val_main_cst_12_apply, val_main_v42_apply, val_main_v43_apply, val_main_cst_13_apply, val_main_v44_apply, val_main_v45_apply, val_main_v46_apply, val_main_v47_apply, val_main_cst_14_apply, val_main_v48_apply, val_main_v49_apply, val_main_v50_apply, val_main_v51_apply, val_main_cst_15_apply, val_main_v52_apply, val_main_v53_apply, val_main_cst_16_apply, val_main_v54_apply, val_main_v55_apply, val_main_cst_17_apply, val_main_v56_apply, val_main_v57_apply, val_main_v58_apply, val_main_cst_18_apply, val_main_v59_apply, val_main_v60_apply, val_main_cst_19_apply, val_main_v61_apply, val_main_v62_apply, val_main_cst_20_apply, val_main_v63_apply, val_main_v64_apply, val_main_v65_apply, val_main_cst_21_apply, val_main_v66_apply, val_main_v67_apply, val_main_cst_22_apply, val_main_v68_apply, val_main_v69_apply, val_main_cst_23_apply, val_main_v70_apply, val_main_v71_apply, val_main_v72_apply, val_main_cst_24_apply, val_main_v73_apply, val_main_v74_apply, val_main_v75_apply, val_main_v76_apply, val_main_cst_25_apply, val_main_v77_apply, val_main_v78_apply, val_main_cst_26_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, x_at, y_at, z_at, Ideal.mulf_def, Ideal.subf_def, Ideal.ofBits_def]
  rfl

/-- The reference's result array is the table of harmonics of the argument's rows. -/
theorem result_eq : val_main_v99 (F := Ideal) X = table (n := 4000000) X := by
  funext i
  obtain ⟨p, q, rfl⟩ : ∃ (p : Fin 4000000) (q : Fin 16), i = ix2 p q := ⟨i 0, i 1, eq_ix2 i⟩
  unfold val_main_v99
  refine (concat16_columns_apply (n := 4000000) ![val_main_v83 (F := Ideal), val_main_v84 (F := Ideal) X, val_main_v85 (F := Ideal) X, val_main_v86 (F := Ideal) X, val_main_v87 (F := Ideal) X, val_main_v88 (F := Ideal) X, val_main_v89 (F := Ideal) X, val_main_v90 (F := Ideal) X, val_main_v91 (F := Ideal) X, val_main_v92 (F := Ideal) X, val_main_v93 (F := Ideal) X, val_main_v94 (F := Ideal) X, val_main_v95 (F := Ideal) X, val_main_v96 (F := Ideal) X, val_main_v97 (F := Ideal) X, val_main_v98 (F := Ideal) X] _ p q).trans ?_
  rw [table_apply]
  unfold row
  match q with
  | ⟨0, _⟩ => exact col0 X (ix2 p 0)
  | ⟨1, _⟩ => exact col1 X (ix2 p 0)
  | ⟨2, _⟩ => exact col2 X (ix2 p 0)
  | ⟨3, _⟩ => exact col3 X (ix2 p 0)
  | ⟨4, _⟩ => exact col4 X (ix2 p 0)
  | ⟨5, _⟩ => exact col5 X (ix2 p 0)
  | ⟨6, _⟩ => exact col6 X (ix2 p 0)
  | ⟨7, _⟩ => exact col7 X (ix2 p 0)
  | ⟨8, _⟩ => exact col8 X (ix2 p 0)
  | ⟨9, _⟩ => exact col9 X (ix2 p 0)
  | ⟨10, _⟩ => exact col10 X (ix2 p 0)
  | ⟨11, _⟩ => exact col11 X (ix2 p 0)
  | ⟨12, _⟩ => exact col12 X (ix2 p 0)
  | ⟨13, _⟩ => exact col13 X (ix2 p 0)
  | ⟨14, _⟩ => exact col14 X (ix2 p 0)
  | ⟨15, _⟩ => exact col15 X (ix2 p 0)
  | ⟨n + 16, h⟩ => exact absurd h (by omega)

end Cert.SphHarm.Ref

end
-- ==== Proof.lean ====
/-
  Real spherical harmonics of degree 0 to 3 of four million 3-vectors: the kernel against its reference, over the
  extended reals.

  Both programs send row `(a₀, a₁, a₂)` of the `[4000000, 3]` argument to the sixteen harmonics of its direction
  `(a₀, a₁, a₂) / |a|`: the row is scaled by `1/√s`, `s` the sum of its three squares, and each harmonic is a fixed product
  of the scaled entries with single-precision constants that are the same words in both programs, multiplied in the same
  order.  The kernel walks the rows in four hundred blocks of ten thousand, each block in ten chunks of a thousand, and
  adds the squares as `(a₀² + a₁²) + a₂²`; the reference works on whole columns and sums the squares from zero.  Those are
  the only differences: a row of the result depends on the same row of the argument alone, so the blocking does not
  matter, and zero is the unit of addition.  Neither step needs the entries to be finite.

  The specification is `Cert.SphHarm.table` (Spec).  The kernel side: one chunk at an index (KernelChunk), the block from
  the loop's ten stores (KernelBlock), the array from the four hundred blocks (KernelArray).  The reference side:
  RefValue.  Nothing is rewritten on the way from the kernel to its reading over the extended reals, so that claim is
  trivial; the three runs terminate without a fault and leave the argument as it was.
-/
import proofs.«149268_j56805237457290_2_alg».proof.Defs
import proofs.«149268_j56805237457290_2_alg».proof.Proof.Gen.Kernel
import proofs.«149268_j56805237457290_2_alg».proof.Proof.Gen.Kernel.Frame
import proofs.«149268_j56805237457290_2_alg».proof.Proof.Gen.KernelIdeal
import proofs.«149268_j56805237457290_2_alg».proof.Proof.Gen.KernelIdeal.Frame
import proofs.«149268_j56805237457290_2_alg».proof.Proof.Gen.ReferenceIdeal
import proofs.«149268_j56805237457290_2_alg».proof.Proof.Gen.Pre_finite_inputs
import proofs.«149268_j56805237457290_2_alg».proof.Proof.Gen.KernelIdeal.Value
import proofs.«149268_j56805237457290_2_alg».proof.Proof.Gen.ReferenceIdeal.Run
import proofs.«149268_j56805237457290_2_alg».proof.Proof.Gen.ReferenceIdeal.Read
import proofs.«149268_j56805237457290_2_alg».proof.Proof.KernelArray
import proofs.«149268_j56805237457290_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its argument unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end with the table of harmonics of the argument's rows. -/
theorem algebraic : Cert.algebraic_KernelIdeal_ReferenceIdeal := by
  intro m ρ m' ρ' _ hagree
  refine ⟨fun c => Cert.SphHarm.table (n := 4000000) (m ((c.tc : Thread Cert.KernelIdeal.nD Cert.KernelIdeal.τ).loc Cert.KernelIdeal.main_arg0)),
    Cert.SphHarm.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v99_eq, Cert.SphHarm.Ref.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
